-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x600000 32) (main_arg2 : FVec F S600000 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S1x600000 : Shape := ⟨2, ![1, 600000]⟩
abbrev S2000x128 : Shape := ⟨2, ![2000, 128]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S2000x1 : Shape := ⟨2, ![2000, 1]⟩

abbrev nBuf : Space → Nat
  | .hbm => 127
  | .vmem => 34
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x600000, .i32⟩
  | .hbm, ⟨10, _⟩ => ⟨S600000, .i32⟩
  | .hbm, ⟨11, _⟩ => ⟨S1x600000, .i32⟩
  | .hbm, ⟨12, _⟩ => ⟨S600000, .i32⟩
  | .hbm, ⟨13, _⟩ => ⟨S50000x128, .f32⟩
  | .hbm, ⟨14, _⟩ => ⟨S_, .f32⟩
  | .hbm, ⟨15, _⟩ => ⟨S50000, .f32⟩
  | .hbm, ⟨16, _⟩ => ⟨S600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S600000, .i32⟩
  | .hbm, ⟨31, _⟩ => ⟨S600000, .i1⟩
  | .hbm, ⟨32, _⟩ => ⟨S_, .i32⟩
  | .hbm, ⟨33, _⟩ => ⟨S600000, .i32⟩
  | .hbm, ⟨34, _⟩ => ⟨S600000, .i32⟩
  | .hbm, ⟨35, _⟩ => ⟨S600000, .i32⟩
  | .hbm, ⟨36, _⟩ => ⟨S600000x1, .i32⟩
  | .hbm, ⟨37, _⟩ => ⟨S600000, .f32⟩
  | .hbm, ⟨38, _⟩ => ⟨S600000, .f32⟩
  | .hbm, ⟨39, _⟩ => ⟨S_, .i32⟩
  | .hbm, ⟨40, _⟩ => ⟨S600000, .i32⟩
  | .hbm, ⟨41, _⟩ => ⟨S600000, .i1⟩
  | .hbm, ⟨42, _⟩ => ⟨S_, .i32⟩
  | .hbm, ⟨43, _⟩ => ⟨S600000, .i32⟩
  | .hbm, ⟨44, _⟩ => ⟨S600000, .i32⟩
  | .hbm, ⟨45, _⟩ => ⟨S600000, .i32⟩
  | .hbm, ⟨46, _⟩ => ⟨S600000x1, .i32⟩
  | .hbm, ⟨47, _⟩ => ⟨S600000, .f32⟩
  | .hbm, ⟨48, _⟩ => ⟨S600000, .f32⟩
  | .hbm, ⟨49, _⟩ => ⟨S_, .i32⟩
  | .hbm, ⟨50, _⟩ => ⟨S600000, .i32⟩
  | .hbm, ⟨51, _⟩ => ⟨S600000, .i1⟩
  | .hbm, ⟨52, _⟩ => ⟨S_, .i32⟩
  | .hbm, ⟨53, _⟩ => ⟨S600000, .i32⟩
  | .hbm, ⟨54, _⟩ => ⟨S600000, .i32⟩
  | .hbm, ⟨55, _⟩ => ⟨S600000, .i32⟩
  | .hbm, ⟨56, _⟩ => ⟨S600000x1, .i32⟩
  | .hbm, ⟨57, _⟩ => ⟨S600000x128, .f32⟩
  | .hbm, ⟨58, _⟩ => ⟨S600000x1, .f32⟩
  | .hbm, ⟨59, _⟩ => ⟨S600000x128, .f32⟩
  | .hbm, ⟨60, _⟩ => ⟨S600000x128, .f32⟩
  | .hbm, ⟨61, _⟩ => ⟨S_, .f32⟩
  | .hbm, ⟨62, _⟩ => ⟨S50000x128, .f32⟩
  | .hbm, ⟨63, _⟩ => ⟨S600000x1, .i32⟩
  | .hbm, ⟨64, _⟩ => ⟨S50000x128, .f32⟩
  | .hbm, ⟨65, _⟩ => ⟨S50000, .f32⟩
  | .hbm, ⟨66, _⟩ => ⟨S50000x1, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S50000, .f32⟩
  | .hbm, ⟨72, _⟩ => ⟨S600000x1, .i32⟩
  | .hbm, ⟨73, _⟩ => ⟨S50000, .f32⟩
  | .hbm, ⟨74, _⟩ => ⟨S_, .f32⟩
  | .hbm, ⟨75, _⟩ => ⟨S50000, .f32⟩
  | .hbm, ⟨76, _⟩ => ⟨S50000, .f32⟩
  | .hbm, ⟨77, _⟩ => ⟨S_, .f32⟩
  | .hbm, ⟨78, _⟩ => ⟨S50000, .f32⟩
  | .hbm, ⟨79, _⟩ => ⟨S50000, .i1⟩
  | .hbm, ⟨80, _⟩ => ⟨S50000, .f32⟩
  | .hbm, ⟨81, _⟩ => ⟨S_, .f32⟩
  | .hbm, ⟨82, _⟩ => ⟨S_, .f32⟩
  | .hbm, ⟨83, _⟩ => ⟨S50000, .f32⟩
  | .hbm, ⟨84, _⟩ => ⟨S50000, .f32⟩
  | .hbm, ⟨85, _⟩ => ⟨S_, .i32⟩
  | .hbm, ⟨86, _⟩ => ⟨S600000, .i32⟩
  | .hbm, ⟨87, _⟩ => ⟨S600000, .i1⟩
  | .hbm, ⟨88, _⟩ => ⟨S_, .i32⟩
  | .hbm, ⟨89, _⟩ => ⟨S600000, .i32⟩
  | .hbm, ⟨90, _⟩ => ⟨S600000, .i32⟩
  | .hbm, ⟨91, _⟩ => ⟨S600000, .i32⟩
  | .hbm, ⟨92, _⟩ => ⟨S600000x1, .i32⟩
  | .hbm, ⟨93, _⟩ => ⟨S600000, .f32⟩
  | .hbm, ⟨94, _⟩ => ⟨S600000, .f32⟩
  | .hbm, ⟨95, _⟩ => ⟨S_, .i32⟩
  | .hbm, ⟨96, _⟩ => ⟨S600000, .i32⟩
  | .hbm, ⟨97, _⟩ => ⟨S600000, .i1⟩
  | .hbm, ⟨98, _⟩ => ⟨S_, .i32⟩
  | .hbm, ⟨99, _⟩ => ⟨S600000, .i32⟩
  | .hbm, ⟨100, _⟩ => ⟨S600000, .i32⟩
  | .hbm, ⟨101, _⟩ => ⟨S600000, .i32⟩
  | .hbm, ⟨102, _⟩ => ⟨S600000x1, .i32⟩
  | .hbm, ⟨103, _⟩ => ⟨S600000, .f32⟩
  | .hbm, ⟨104, _⟩ => ⟨S600000, .f32⟩
  | .hbm, ⟨105, _⟩ => ⟨S_, .i32⟩
  | .hbm, ⟨106, _⟩ => ⟨S600000, .i32⟩
  | .hbm, ⟨107, _⟩ => ⟨S600000, .i1⟩
  | .hbm, ⟨108, _⟩ => ⟨S_, .i32⟩
  | .hbm, ⟨109, _⟩ => ⟨S600000, .i32⟩
  | .hbm, ⟨110, _⟩ => ⟨S600000, .i32⟩
  | .hbm, ⟨111, _⟩ => ⟨S600000, .i32⟩
  | .hbm, ⟨112, _⟩ => ⟨S600000x1, .i32⟩
  | .hbm, ⟨113, _⟩ => ⟨S600000x128, .f32⟩
  | .hbm, ⟨114, _⟩ => ⟨S600000x1, .f32⟩
  | .hbm, ⟨115, _⟩ => ⟨S600000x128, .f32⟩
  | .hbm, ⟨116, _⟩ => ⟨S600000x128, .f32⟩
  | .hbm, ⟨117, _⟩ => ⟨S_, .f32⟩
  | .hbm, ⟨118, _⟩ => ⟨S50000x128, .f32⟩
  | .hbm, ⟨119, _⟩ => ⟨S600000x1, .i32⟩
  | .hbm, ⟨120, _⟩ => ⟨S50000x128, .f32⟩
  | .hbm, ⟨121, _⟩ => ⟨S50000, .f32⟩
  | .hbm, ⟨122, _⟩ => ⟨S50000x1, .f32⟩
  | .hbm, ⟨123, _⟩ => ⟨S1x128, .f32⟩
  | .hbm, ⟨124, _⟩ => ⟨S50000x128, .f32⟩
  | .hbm, ⟨125, _⟩ => ⟨S1x128, .f32⟩
  | .hbm, ⟨126, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x128, .f32⟩
  | .local _ .vmem, ⟨31, _⟩ => ⟨S1x128, .f32⟩
  | .local _ .vmem, ⟨32, _⟩ => ⟨S2000x128, .f32⟩
  | .local _ .vmem, ⟨33, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_12 : Ref sig .tc := ⟨.hbm, 81, rfl⟩
abbrev main_call1_v0 : Ref sig .tc := ⟨.hbm, 82, rfl⟩
abbrev main_call1_v1 : Ref sig .tc := ⟨.hbm, 83, rfl⟩
abbrev main_v56 : Ref sig .tc := ⟨.hbm, 84, rfl⟩
abbrev main_c_13 : Ref sig .tc := ⟨.hbm, 85, rfl⟩
abbrev main_v57 : Ref sig .tc := ⟨.hbm, 86, rfl⟩
abbrev main_v58 : Ref sig .tc := ⟨.hbm, 87, rfl⟩
abbrev main_c_14 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_15 : Ref sig .tc := ⟨.hbm, 95, rfl⟩
abbrev main_v65 : Ref sig .tc := ⟨.hbm, 96, rfl⟩
abbrev main_v66 : Ref sig .tc := ⟨.hbm, 97, rfl⟩
abbrev main_c_16 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_c_17 : Ref sig .tc := ⟨.hbm, 105, rfl⟩
abbrev main_v73 : Ref sig .tc := ⟨.hbm, 106, rfl⟩
abbrev main_v74 : Ref sig .tc := ⟨.hbm, 107, rfl⟩
abbrev main_c_18 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_19 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S50000 : S_.BroadcastsInDim S50000 (![] : Fin 0 → Fin S50000.rank)
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  shapeCasts_S50000_S50000x1 : S50000.ShapeCasts S50000x1
  shapeCasts_S128_S1x128 : S128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S2000x1_S2000x128 : S2000x1.Broadcasts S2000x128
  broadcasts_S1x128_S2000x128 : S1x128.Broadcasts S2000x128
  dot_S2000x128_S128x128_S2000x128_1_0_0_1_n_n_wf : DotDims.WF S2000x128 S128x128 S2000x128 [1] [0] [0] [1] [] []
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .f32 = 32 ∨ (Rect.block (s := S50000x128) S2000x128.size (cc4_transform_3 i) (hinb4_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v85) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v87) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v88) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v89) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v89) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v90) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v91) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S1x600000 : Shape := ⟨2, ![1, 600000]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩

abbrev nBuf : Space → Nat
  | .hbm => 143
  | .vmem => 0
  | .smem => 0
  | _ => 0

abbrev hbmTy0_0 (i : Nat) : BufTy := match i % 128 with
  | 0 => ⟨S50000x128, .f32⟩
  | 1 => ⟨S2x600000, .i32⟩
  | 2 => ⟨S600000, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S1x600000, .i32⟩
  | 10 => ⟨S600000, .i32⟩
  | 11 => ⟨S1x600000, .i32⟩
  | 12 => ⟨S600000, .i32⟩
  | 13 => ⟨S50000x128, .f32⟩
  | 14 => ⟨S_, .f32⟩
  | 15 => ⟨S50000, .f32⟩
  | 16 => ⟨S600000x1, .i32⟩
  | 17 => ⟨S50000, .f32⟩
  | 18 => ⟨S_, .f32⟩
  | 19 => ⟨S50000, .f32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S600000x1, .i32⟩
  | 37 => ⟨S600000, .f32⟩
  | 38 => ⟨S600000, .f32⟩
  | 39 => ⟨S_, .i32⟩
  | 40 => ⟨S600000, .i32⟩
  | 41 => ⟨S600000, .i1⟩
  | 42 => ⟨S_, .i32⟩
  | 43 => ⟨S600000, .i32⟩
  | 44 => ⟨S600000, .i32⟩
  | 45 => ⟨S600000, .i32⟩
  | 46 => ⟨S600000x1, .i32⟩
  | 47 => ⟨S600000, .f32⟩
  | 48 => ⟨S600000, .f32⟩
  | 49 => ⟨S_, .i32⟩
  | 50 => ⟨S600000, .i32⟩
  | 51 => ⟨S600000, .i1⟩
  | 52 => ⟨S_, .i32⟩
  | 53 => ⟨S600000, .i32⟩
  | 54 => ⟨S600000, .i32⟩
  | 55 => ⟨S600000, .i32⟩
  | 56 => ⟨S600000x1, .i32⟩
  | 57 => ⟨S600000x128, .f32⟩
  | 58 => ⟨S600000x1, .f32⟩
  | 59 => ⟨S600000x128, .f32⟩
  | 60 => ⟨S600000x128, .f32⟩
  | 61 => ⟨S_, .f32⟩
  | 62 => ⟨S50000x128, .f32⟩
  | 63 => ⟨S600000x1, .i32⟩
  | 64 => ⟨S50000x128, .f32⟩
  | 65 => ⟨S50000, .f32⟩
  | 66 => ⟨S50000x1, .f32⟩
  | 67 => ⟨S50000x128, .f32⟩
  | 68 => ⟨S50000x128, .f32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S50000x128, .f32⟩
  | 75 => ⟨S50000x128, .f32⟩
  | 76 => ⟨S50000x128, .f32⟩
  | 77 => ⟨S_, .f32⟩
  | 78 => ⟨S50000, .f32⟩
  | 79 => ⟨S600000x1, .i32⟩
  | 80 => ⟨S50000, .f32⟩
  | 81 => ⟨S_, .f32⟩
  | 82 => ⟨S50000, .f32⟩
  | 83 => ⟨S50000, .f32⟩
  | 84 => ⟨S_, .f32⟩
  | 85 => ⟨S50000, .f32⟩
  | 86 => ⟨S50000, .i1⟩
  | 87 => ⟨S50000, .f32⟩
  | 88 => ⟨S_, .f32⟩
  | 89 => ⟨S_, .f32⟩
  | 90 => ⟨S50000, .f32⟩
  | 91 => ⟨S50000, .f32⟩
  | 92 => ⟨S_, .i32⟩
  | 93 => ⟨S600000, .i32⟩
  | 94 => ⟨S600000, .i1⟩
  | 95 => ⟨S_, .i32⟩
  | 96 => ⟨S600000, .i32⟩
  | 97 => ⟨S600000, .i32⟩
  | 98 => ⟨S600000, .i32⟩
  | 99 => ⟨S600000x1, .i32⟩
  | 100 => ⟨S600000, .f32⟩
  | 101 => ⟨S600000, .f32⟩
  | 102 => ⟨S_, .i32⟩
  | 103 => ⟨S600000, .i32⟩
  | 104 => ⟨S600000, .i1⟩
  | 105 => ⟨S_, .i32⟩
  | 106 => ⟨S600000, .i32⟩
  | 107 => ⟨S600000, .i32⟩
  | 108 => ⟨S600000, .i32⟩
  | 109 => ⟨S600000x1, .i32⟩
  | 110 => ⟨S600000, .f32⟩
  | 111 => ⟨S600000, .f32⟩
  | 112 => ⟨S_, .i32⟩
  | 113 => ⟨S600000, .i32⟩
  | 114 => ⟨S600000, .i1⟩
  | 115 => ⟨S_, .i32⟩
  | 116 => ⟨S600000, .i32⟩
  | 117 => ⟨S600000, .i32⟩
  | 118 => ⟨S600000, .i32⟩
  | 119 => ⟨S600000x1, .i32⟩
  | 120 => ⟨S600000x128, .f32⟩
  | 121 => ⟨S600000x1, .f32⟩
  | 122 => ⟨S600000x128, .f32⟩
  | 123 => ⟨S600000x128, .f32⟩
  | 124 => ⟨S_, .f32⟩
  | 125 => ⟨S50000x128, .f32⟩
  | 126 => ⟨S600000x1, .i32⟩
  | 127 => ⟨S50000x128, .f32⟩
  | _ => ⟨S50000x128, .f32⟩

abbrev hbmTy0_1 (i : Nat) : BufTy := match i % 128 with
  | 0 => ⟨S50000, .f32⟩
  | 1 => ⟨S50000x1, .f32⟩
  | 2 => ⟨S50000x128, .f32⟩
  | 3 => ⟨S50000x128, .f32⟩
  | 4 => ⟨S50000x128, .f32⟩
  | 5 => ⟨S1x128, .f32⟩
  | 6 => ⟨S50000x128, .f32⟩
  | 7 => ⟨S50000x128, .f32⟩
  | 8 => ⟨S_, .f32⟩
  | 9 => ⟨S50000x128, .f32⟩
  | 10 => ⟨S50000x128, .f32⟩
  | 11 => ⟨S50000x128, .f32⟩
  | 12 => ⟨S1x128, .f32⟩
  | 13 => ⟨S50000x128, .f32⟩
  | 14 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call1_cst : Ref sig .tc := ⟨.hbm, 73, rfl⟩
abbrev main_call1_v0 : Ref sig .tc := ⟨.hbm, 74, rfl⟩
abbrev main_v51 : Ref sig .tc := ⟨.hbm, 75, rfl⟩
abbrev main_v52 : Ref sig .tc := ⟨.hbm, 76, rfl⟩
abbrev main_cst_9 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_10 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v61 : Ref sig .tc := ⟨.hbm, 91, rfl⟩
abbrev main_c_13 : Ref sig .tc := ⟨.hbm, 92, rfl⟩
abbrev main_v62 : Ref sig .tc := ⟨.hbm, 93, rfl⟩
abbrev main_v63 : Ref sig .tc := ⟨.hbm, 94, rfl⟩
abbrev main_c_14 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_c_15 : Ref sig .tc := ⟨.hbm, 102, rfl⟩
abbrev main_v70 : Ref sig .tc := ⟨.hbm, 103, rfl⟩
abbrev main_v71 : Ref sig .tc := ⟨.hbm, 104, rfl⟩
abbrev main_c_16 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_c_17 : Ref sig .tc := ⟨.hbm, 112, rfl⟩
abbrev main_v78 : Ref sig .tc := ⟨.hbm, 113, rfl⟩
abbrev main_v79 : Ref sig .tc := ⟨.hbm, 114, rfl⟩
abbrev main_c_18 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_19 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_call3_cst : Ref sig .tc := ⟨.hbm, 136, rfl⟩
abbrev main_call3_v0 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000 : S_.BroadcastsInDim S50000 (![] : Fin 0 → Fin S50000.rank)
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.ResultRun.lean ====
/-
  The idealized kernel's run with its result kept. The program is five pipelined regions among stretches of host
  operations; its buffers at every boundary are a fold from the launch memory (a stretch applies its operations, a
  region replaces its output array by what its grid points wrote back and leaves every other buffer). Every weakly
  fair execution terminates, faults nowhere, and ends with every buffer that lives for the whole program at the
  fold's last stage. Read at the nine arguments that is the launch memory; read at the result it is the last
  region's output array after its write-backs. This module states both, so that the value of the result can be
  computed from the fold.
-/
import proofs.«175317_j27779848471424_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates without a fault; the result buffer ends at the last
    boundary's contents and the nine arguments end as launched. -/
theorem run_result : θ_run defs (onTc (τ := τ) (main (F := F))) ⟨m, fun _ => 0, ρ⟩ (fun r => ∀ c : Dev nD,
      r.2.mem ((c.tc : Thread nD τ).loc main_v91) = W13 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v91 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c)⟩)

end Cert.KernelIdeal.ResultRun

end
-- ==== Proof.DenseSpec.lean ====
/-
  The three dense stages of a graph-convolution encoder, each as ONE function of whole arrays over the extended
  reals, index by index. Rows are nodes, columns are features.

  * `rowDot a w`      : entry (r, c) is the sum over k of a(r, k) · w(k, c): a feature transform.
  * `combine g x d b` : entry (r, c) is max((g(r, c) + x(r, c) · d(r)) + b(c), 0): the aggregated messages g, plus
                         the node's own transformed features x weighted by its self-loop coefficient d(r) (a column),
                         plus the bias b(c) (a row), clipped below at zero.
  * `rowDotBias a w b`: entry (r, c) is rowDot a w (r, c) + b(c): the output projection.

  The row count is a parameter: the same function describes one block of rows and the whole array, and an entry of
  each depends only on row r of its row-indexed operands. That is why a computation done block of rows by block of
  rows produces the whole-array function: the congruence lemmas `rowDot_congr`, `combine_congr`, `rowDotBias_congr` say that
  two sets of operands that agree on the row and the column an entry reads give the same entry.
-/
import Idealize.ShloMosaic.PureOps.Ideal
import Idealize.ShloMosaic.PureOps.Ideal.Laws
import Idealize.ShloMosaic.Lib.ValueIdx

noncomputable section

namespace Cert.Dense

open Idealize.ShloMosaic Idealize.ShloMosaic.ValueIdx

/-- The word of the float zero; it is kept as a word on both sides and never evaluated. -/
abbrev zeroWord : BitVec 32 := 0x00000000#32

/-- Entry (r, c) is the sum over k of a(r, k) · w(k, c). -/
def rowDot {R K C : ℕ} (a : FVec Ideal ⟨2, ![R, K]⟩ .f32) (w : FVec Ideal ⟨2, ![K, C]⟩ .f32) :
    FVec Ideal ⟨2, ![R, C]⟩ .f32 :=
  fun i => ∑ k : Fin K, a (ix2 (i 0) k) * w (ix2 k (i 1))

/-- Entry (r, c) is max((g(r, c) + x(r, c) · d(r)) + b(c), 0), the zero being the float zero's value. -/
def combine {R C : ℕ} (g x : FVec Ideal ⟨2, ![R, C]⟩ .f32) (d : FVec Ideal ⟨2, ![R, 1]⟩ .f32)
    (b : FVec Ideal ⟨2, ![1, C]⟩ .f32) : FVec Ideal ⟨2, ![R, C]⟩ .f32 :=
  fun i => max ((g i + x i * d (ix2 (i 0) (0 : Fin 1))) + b (ix2 (0 : Fin 1) (i 1))) (Ideal.ofBits .f32 zeroWord)

/-- Entry (r, c) is the sum over k of a(r, k) · w(k, c), plus b(c). -/
def rowDotBias {R K C : ℕ} (a : FVec Ideal ⟨2, ![R, K]⟩ .f32) (w : FVec Ideal ⟨2, ![K, C]⟩ .f32)
    (b : FVec Ideal ⟨2, ![1, C]⟩ .f32) : FVec Ideal ⟨2, ![R, C]⟩ .f32 :=
  fun i => rowDot a w i + b (ix2 (0 : Fin 1) (i 1))

/-- An entry of `rowDot` reads row r of its left operand and column c of its right one: operands that agree there, at
    two indices, give the same entry. -/
theorem rowDot_congr {R R' K C C' : ℕ} (a : FVec Ideal ⟨2, ![R, K]⟩ .f32) (a' : FVec Ideal ⟨2, ![R', K]⟩ .f32)
    (w : FVec Ideal ⟨2, ![K, C]⟩ .f32) (w' : FVec Ideal ⟨2, ![K, C']⟩ .f32)
    (i : (⟨2, ![R, C]⟩ : Shape).Idx) (j : (⟨2, ![R', C']⟩ : Shape).Idx)
    (ha : ∀ k : Fin K, a' (ix2 (j 0) k) = a (ix2 (i 0) k)) (hw : ∀ k : Fin K, w' (ix2 k (j 1)) = w (ix2 k (i 1))) :
    rowDot a' w' j = rowDot a w i :=
  Finset.sum_congr rfl fun k _ => by rw [ha k, hw k]

/-- An entry of `combine` reads its own position of g and x, row r of the column d and column c of the row b. -/
theorem combine_congr {R R' C C' : ℕ} (g x : FVec Ideal ⟨2, ![R, C]⟩ .f32) (d : FVec Ideal ⟨2, ![R, 1]⟩ .f32)
    (b : FVec Ideal ⟨2, ![1, C]⟩ .f32) (g' x' : FVec Ideal ⟨2, ![R', C']⟩ .f32) (d' : FVec Ideal ⟨2, ![R', 1]⟩ .f32)
    (b' : FVec Ideal ⟨2, ![1, C']⟩ .f32) (i : (⟨2, ![R, C]⟩ : Shape).Idx) (j : (⟨2, ![R', C']⟩ : Shape).Idx)
    (hg : g' j = g i) (hx : x' j = x i) (hd : d' (ix2 (j 0) (0 : Fin 1)) = d (ix2 (i 0) (0 : Fin 1)))
    (hb : b' (ix2 (0 : Fin 1) (j 1)) = b (ix2 (0 : Fin 1) (i 1))) :
    combine g' x' d' b' j = combine g x d b i := by
  unfold combine
  rw [hg, hx, hd, hb]

/-- An entry of `rowDotBias` reads what `rowDot`'s does, and column c of the row b. -/
theorem rowDotBias_congr {R R' K C C' : ℕ} (a : FVec Ideal ⟨2, ![R, K]⟩ .f32) (a' : FVec Ideal ⟨2, ![R', K]⟩ .f32)
    (w : FVec Ideal ⟨2, ![K, C]⟩ .f32) (w' : FVec Ideal ⟨2, ![K, C']⟩ .f32)
    (b : FVec Ideal ⟨2, ![1, C]⟩ .f32) (b' : FVec Ideal ⟨2, ![1, C']⟩ .f32)
    (i : (⟨2, ![R, C]⟩ : Shape).Idx) (j : (⟨2, ![R', C']⟩ : Shape).Idx)
    (ha : ∀ k : Fin K, a' (ix2 (j 0) k) = a (ix2 (i 0) k)) (hw : ∀ k : Fin K, w' (ix2 k (j 1)) = w (ix2 k (i 1)))
    (hb : b' (ix2 (0 : Fin 1) (j 1)) = b (ix2 (0 : Fin 1) (i 1))) :
    rowDotBias a' w' b' j = rowDotBias a w b i := by
  unfold rowDotBias
  rw [rowDot_congr a a' w w' i j ha hw, hb]

end Cert.Dense

end
-- ==== Proof.LibColumnForms.lean ====
/-
  Column ("keepdims") forms of two layout operations, read at an index. The library reads a vector cast to a ROW
  [1, a] and a row [1, b] broadcast over many rows; these are the same two facts for a COLUMN: a vector of length `a`
  cast to [a, 1], and a column [a, 1] broadcast over `b` lanes.
-/
import Idealize.ShloMosaic.Lib.Pipeline.Value
import Idealize.ShloMosaic.Lib.ValueIdx

namespace Idealize.ShloMosaic.ValueLayout

open Idealize.ShloMosaic Idealize.ShloMosaic.ValueIdx

variable {α : Type}

/-- An `[a]` array cast to the column `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueLayout
-- ==== Proof.BlockBodies.lean ====
/-
  What each kernel body computes from the blocks it loads, at the extended reals, as one of the three dense stages
  (DenseSpec): the two feature transforms are `rowDot` of the loaded row block and the weight, the two layer
  combines are `combine` of the aggregated block, the transformed block, the coefficient column and the bias row,
  and the output projection is `rowDotBias`.

  Two facts carry it. A change of float format is the identity at the extended reals, so rounding the operands to
  a narrower format before the product changes nothing; and a product accumulated into the zero array is the plain
  sum over the contracted index of the operands' products, which is `rowDot` once the contraction index of the
  product's dimension record is identified with the column of the left operand and the row of the right one.
  The combine body broadcasts a column over the lanes and a row over the rows: read at (p, q) these are the column's
  entry in row p and the row's entry in column q.
-/
import proofs.«175317_j27779848471424_1_alg».proof.Proof.Gen.KernelIdeal.Skeleton
import proofs.«175317_j27779848471424_1_alg».proof.Proof.DenseSpec
import proofs.«175317_j27779848471424_1_alg».proof.Proof.LibColumnForms
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Bodies

open Cert.KernelIdeal Cert.KernelIdeal.Gen Idealize.ShloMosaic Idealize.ShloMosaic.ValueIdx
open Idealize.ShloMosaic.ValueLayout Cert.Dense

/-! ## The block product's operand indices, by coordinates -/

theorem lhs_row (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_col (i : S2000x128.Idx) (q : dot_S2000x128_S128x128_S2000x128_1_0_0_1_n_n.contr.Idx) : (dot_S2000x128_S128x128_S2000x128_1_0_0_1_n_n.lhsIdx i q 1).val = (q ⟨0, by decide⟩).val :=
  dot_S2000x128_S128x128_S2000x128_1_0_0_1_n_n.lhsIdx_val_of_single rfl i q
theorem rhs_row (i : S2000x128.Idx) (q : dot_S2000x128_S128x128_S2000x128_1_0_0_1_n_n.contr.Idx) : (dot_S2000x128_S128x128_S2000x128_1_0_0_1_n_n.rhsIdx i q 0).val = (q ⟨0, by decide⟩).val :=
  dot_S2000x128_S128x128_S2000x128_1_0_0_1_n_n.rhsIdx_val_of_single rfl i q
theorem rhs_col (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product of a 2000-row block and the weight, both first rounded to a narrower format, accumulated into zero:
    at the extended reals, entry (r, c) is the sum over k of a(r, k) · w(k, c). -/
theorem blockDot (a : FVec Ideal S2000x128 .f32) (w : FVec Ideal S128x128 .f32) (j : S2000x128.Idx) :
    matmul (F := Ideal) dot_S2000x128_S128x128_S2000x128_1_0_0_1_n_n none (truncf .bf16 a bitsLt_bf16_f32) (truncf .bf16 w bitsLt_bf16_f32)
      (constant S2000x128 .f32 0x00000000#32) j = rowDot a w j := by
  simp only [matmul]
  rw [Ideal.matmul_constant_zero_apply, ← Equiv.sum_comp (contrEquiv1 dot_S2000x128_S128x128_S2000x128_1_0_0_1_n_n 128 rfl rfl).symm]
  unfold rowDot
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx j ((contrEquiv1 dot_S2000x128_S128x128_S2000x128_1_0_0_1_n_n 128 rfl rfl).symm k) = ix2 (j 0) k := funext fun ax => Fin.ext (by
    match ax with
    | ⟨0, _⟩ => exact lhs_row _ _
    | ⟨1, _⟩ => exact (lhs_col _ _).trans hk)
  have er : dot_S2000x128_S128x128_S2000x128_1_0_0_1_n_n.rhsIdx j ((contrEquiv1 dot_S2000x128_S128x128_S2000x128_1_0_0_1_n_n 128 rfl rfl).symm k) = ix2 k (j 1) := funext fun ax => Fin.ext (by
    match ax with
    | ⟨0, _⟩ => exact (rhs_row _ _).trans hk
    | ⟨1, _⟩ => exact rhs_col _ _)
  rw [el, er]
  rfl

/-! ## The five bodies -/

/-- The first feature transform's body. -/
theorem k0_pay1_eq (x0 : Vec Ideal S2000x128 .f32) (x1 : Vec Ideal S128x128 .f32) :
    k0_pay1 (F := Ideal) x0 x1 = rowDot x0 x1 :=
  funext fun j => blockDot x0 x1 j

/-- The second feature transform's body: the same, its row block passing through a cast to its own shape. -/
theorem k2_pay1_eq (x0 : Vec Ideal S2000x128 .f32) (x1 : Vec Ideal S128x128 .f32) :
    k2_pay1 (F := Ideal) x0 x1 = rowDot x0 x1 := by
  funext j
  show matmul (F := Ideal) dot_S2000x128_S128x128_S2000x128_1_0_0_1_n_n none (truncf .bf16 (shapeCast S2000x128 x0 shapeCasts_S2000x128_S2000x128) bitsLt_bf16_f32)
    (truncf .bf16 x1 bitsLt_bf16_f32) (constant S2000x128 .f32 0x00000000#32) j = _
  rw [shapeCast_self]
  exact blockDot x0 x1 j

/-- The output projection's body: the block product plus the bias row broadcast over the rows. -/
theorem k4_pay1_eq (x0 : Vec Ideal S2000x128 .f32) (x1 : Vec Ideal S128x128 .f32) (x2 : Vec Ideal S1x128 .f32) :
    k4_pay1 (F := Ideal) x0 x1 x2 = rowDotBias x0 x1 x2 := by
  funext j
  obtain ⟨p, q, rfl⟩ : ∃ (p : Fin 2000) (q : Fin 128), j = ix2 p q := ⟨j 0, j 1, eq_ix2 j⟩
  show addf (matmul (F := Ideal) dot_S2000x128_S128x128_S2000x128_1_0_0_1_n_n none (truncf .bf16 (shapeCast S2000x128 x0 shapeCasts_S2000x128_S2000x128) bitsLt_bf16_f32)
      (truncf .bf16 x1 bitsLt_bf16_f32) (constant S2000x128 .f32 0x00000000#32))
    (broadcastTo S2000x128 (shapeCast S1x128 x2 shapeCasts_S1x128_S1x128) broadcasts_S1x128_S2000x128) (ix2 p q) = _
  rw [shapeCast_self, shapeCast_self, addf_apply, blockDot, broadcastTo_1b_ab_apply]
  rfl

/-- A layer's combine body: (g + x · d) + b with the column d broadcast over the lanes and the row b over the rows,
    then the maximum with the zero splat. -/
theorem combine_body (x0 x1 : Vec Ideal S2000x128 .f32) (x2 : Vec Ideal S2000x1 .f32) (x3 : Vec Ideal S1x128 .f32) (j : S2000x128.Idx) :
    maximumf (F := Ideal) (addf (addf (shapeCast S2000x128 x0 shapeCasts_S2000x128_S2000x128)
        (mulf (shapeCast S2000x128 x1 shapeCasts_S2000x128_S2000x128)
          (broadcastTo S2000x128 (shapeCast S2000x1 x2 shapeCasts_S2000x1_S2000x1) broadcasts_S2000x1_S2000x128)))
        (broadcastTo S2000x128 (shapeCast S1x128 x3 shapeCasts_S1x128_S1x128) broadcasts_S1x128_S2000x128))
      (broadcast S2000x128 (Scalar.ofBits .f32 0x00000000#32)) j = combine x0 x1 x2 x3 j := by
  obtain ⟨p, q, rfl⟩ : ∃ (p : Fin 2000) (q : Fin 128), j = ix2 p q := ⟨j 0, j 1, eq_ix2 j⟩
  rw [shapeCast_self, shapeCast_self, shapeCast_self, shapeCast_self, maximumf_apply, addf_apply, addf_apply, mulf_apply,
    broadcastTo_a1_ab_apply, broadcastTo_1b_ab_apply]
  rfl

/-- The first layer's combine body. -/
theorem k1_pay1_eq (x0 x1 : Vec Ideal S2000x128 .f32) (x2 : Vec Ideal S2000x1 .f32) (x3 : Vec Ideal S1x128 .f32) :
    k1_pay1 (F := Ideal) x0 x1 x2 x3 = combine x0 x1 x2 x3 :=
  funext fun j => combine_body x0 x1 x2 x3 j

/-- The second layer's combine body. -/
theorem k3_pay1_eq (x0 x1 : Vec Ideal S2000x128 .f32) (x2 : Vec Ideal S2000x1 .f32) (x3 : Vec Ideal S1x128 .f32) :
    k3_pay1 (F := Ideal) x0 x1 x2 x3 = combine x0 x1 x2 x3 :=
  funext fun j => combine_body x0 x1 x2 x3 j

end Cert.KernelIdeal.Bodies

end
-- ==== Proof.Region0.lean ====
/-
  Region 0 of the idealized kernel (the first layer's feature transform), from blocks to the whole array: whatever its operand arrays hold when
  the region is entered, its output array ends holding ONE function of them.

  The grid has 25 points. Point t stages rows 2000·t … 2000·t + 1999 of each row-indexed operand and of the output,
  and the whole of each operand that is not row-indexed; the body turns the staged blocks into the output block, and
  the block is written back over the same rows. An entry of the dense stage reads only its own row of the row-indexed
  operands, so what point t writes back is exactly rows 2000·t … of the stage applied to the WHOLE operands. Every
  row r lies in the block of point r / 2000, so the 25 write-backs cover the array, and the array ends at the stage
  of the whole operands.
-/
import proofs.«175317_j27779848471424_1_alg».proof.Proof.Gen.KernelIdeal.Frame
import proofs.«175317_j27779848471424_1_alg».proof.Proof.BlockBodies
import Idealize.ShloMosaic.Lib.Pipeline.Value

set_option maxRecDepth 16384

noncomputable section

namespace Cert.KernelIdeal.Region0

open Cert.KernelIdeal Cert.KernelIdeal.Gen Cert.Dense
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row operand's block moves with the output's along the rows and sits at
    column block 0, the weight's block never moves, and the output's row block index is at most 24. -/
theorem idx_facts : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 24 :=
  (by decide +kernel : ∀ t : Fin grid0.N, _)

/-- Every row block is some point's. -/
theorem idx_onto : ∀ q : Fin 25, ∃ t : Fin cfg0.N, win0_2.index t = ![q.val, 0] :=
  (by decide +kernel : ∀ q : Fin 25, ∃ t : Fin grid0.N, win0_2.index t = ![q.val, 0])

set_option maxHeartbeats 2000000 in
/-- What point t writes back is its rows of `rowDot` of the whole operands. -/
theorem flushed (c : Dev nD) (t : Fin cfg0.N) :
    (dat0 (F := Ideal) V c).flushed 2 t
      = ((cfg0.win 2).blk t).view.read (Elt Ideal) (rowDot (V c main_arg0) (V c main_arg3)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  rw [Bodies.k0_pay1_eq]
  obtain ⟨e0, e1, e2, e3, e4, e5⟩ := idx_facts t
  funext j
  show rowDot (iblk0 V c 0 t) (iblk0 V c 1 t) j = rowDot (V c main_arg0) (V c main_arg3) (((cfg0.win 2).blk t).view.emb j)
  refine rowDot_congr (R := 50000) (R' := 2000) (K := 128) (C := 128) (C' := 128) (V c main_arg0) (iblk0 V c 0 t)
    (V c main_arg3) (iblk0 V c 1 t) (((cfg0.win 2).blk t).view.emb j) j (fun k => ?_) (fun k => ?_)
  · show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  · show V c main_arg3 (((cfg0.win 1).blk t).view.emb (ix2 k (j 1))) = V c main_arg3 (ix2 k ((((cfg0.win 2).blk t).view.emb j) 1))
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the output array is in point t's block iff each coordinate is in the block's range on its axis. -/
theorem mem_blk (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v4).slice (win0_2.rect t)).set ↔ _
  rw [View.set_slice_whole, Rect.mem_set_unit]
  exact Iff.rfl

/-- Row r is in the block of point r / 2000: the write-backs cover the array. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The output array after the region: `rowDot` of the operand arrays as the region found them. -/
theorem array (c : Dev nD) :
    (dat0 (F := Ideal) V c).arrAt 2 cfg0.N = rowDot (V c main_arg0) (V c main_arg3) :=
  (dat0 (F := Ideal) V c).arrAt_eq_of_cover 2 _ (fun t _ => flushed V c t) cover

end Cert.KernelIdeal.Region0

end
-- ==== Proof.Region1.lean ====
/-
  Region 1 of the idealized kernel (the first layer's combine), from blocks to the whole array: whatever its operand arrays hold when
  the region is entered, its output array ends holding ONE function of them.

  The grid has 25 points. Point t stages rows 2000·t … 2000·t + 1999 of each row-indexed operand and of the output,
  and the whole of each operand that is not row-indexed; the body turns the staged blocks into the output block, and
  the block is written back over the same rows. An entry of the dense stage reads only its own row of the row-indexed
  operands, so what point t writes back is exactly rows 2000·t … of the stage applied to the WHOLE operands. Every
  row r lies in the block of point r / 2000, so the 25 write-backs cover the array, and the array ends at the stage
  of the whole operands.
-/
import proofs.«175317_j27779848471424_1_alg».proof.Proof.Gen.KernelIdeal.Frame
import proofs.«175317_j27779848471424_1_alg».proof.Proof.BlockBodies
import Idealize.ShloMosaic.Lib.Pipeline.Value

set_option maxRecDepth 16384

noncomputable section

namespace Cert.KernelIdeal.Region1

open Cert.KernelIdeal Cert.KernelIdeal.Gen Cert.Dense
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-indexed operands' blocks move with the output's along the rows
    and sit at column block 0, the bias row's block never moves, and the output's row block index is at most 24. -/
theorem idx_facts : ∀ t : Fin cfg1.N, win1_0.index t (0 : Fin 2) = win1_4.index t (0 : Fin 2)
    ∧ win1_0.index t (1 : Fin 2) = 0
    ∧ win1_1.index t (0 : Fin 2) = win1_4.index t (0 : Fin 2) ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 24 :=
  (by decide +kernel : ∀ t : Fin grid1.N, _)

/-- Every row block is some point's. -/
theorem idx_onto : ∀ q : Fin 25, ∃ t : Fin cfg1.N, win1_4.index t = ![q.val, 0] :=
  (by decide +kernel : ∀ q : Fin 25, ∃ t : Fin grid1.N, win1_4.index t = ![q.val, 0])

set_option maxHeartbeats 2000000 in
/-- What point t writes back is its rows of `combine` of the whole operands. -/
theorem flushed (c : Dev nD) (t : Fin cfg1.N) :
    (dat1 (F := Ideal) V c).flushed 4 t
      = ((cfg1.win 4).blk t).view.read (Elt Ideal) (combine (V c main_v42) (V c main_v4) (V c main_v44) (V c main_v45)) := by
  show (cfg1.win 4).cut (grid1.coords t) ((dat1 V c).after 4 t) = _
  rw [after1_4]
  unfold out1_4
  rw [View.canon_unit_zero hz]
  simp only [View.ld_unit_zero (S := S2000x128) hz, View.ld_unit_zero (S := S2000x1) hz, View.ld_unit_zero (S := S1x128) hz]
  rw [Bodies.k1_pay1_eq]
  obtain ⟨e0, e1, e2, e3, e4, e5, e6, e7, e8, e9⟩ := idx_facts t
  funext j
  show combine (iblk1 V c 0 t) (iblk1 V c 1 t) (iblk1 V c 2 t) (iblk1 V c 3 t) j
    = combine (V c main_v42) (V c main_v4) (V c main_v44) (V c main_v45) (((cfg1.win 4).blk t).view.emb j)
  refine combine_congr (R := 50000) (R' := 2000) (C := 128) (C' := 128) (V c main_v42) (V c main_v4) (V c main_v44) (V c main_v45)
    (iblk1 V c 0 t) (iblk1 V c 1 t) (iblk1 V c 2 t) (iblk1 V c 3 t) (((cfg1.win 4).blk t).view.emb j) j ?_ ?_ ?_ ?_
  · show V c main_v42 (((cfg1.win 0).blk t).view.emb j) = V c main_v42 (((cfg1.win 4).blk t).view.emb j)
    refine congrArg (V c main_v42) (funext fun a => Fin.ext ?_)
    match a with
    | ⟨0, _⟩ => show win1_0.index t (0 : Fin 2) * 2000 + 1 * (j 0).val = win1_4.index t (0 : Fin 2) * 2000 + 1 * (j 0).val; omega
    | ⟨1, _⟩ => show win1_0.index t (1 : Fin 2) * 128 + 1 * (j 1).val = win1_4.index t (1 : Fin 2) * 128 + 1 * (j 1).val; omega
  · show V c main_v4 (((cfg1.win 1).blk t).view.emb j) = V c main_v4 (((cfg1.win 4).blk t).view.emb j)
    refine congrArg (V c main_v4) (funext fun a => Fin.ext ?_)
    match a with
    | ⟨0, _⟩ => show win1_1.index t (0 : Fin 2) * 2000 + 1 * (j 0).val = win1_4.index t (0 : Fin 2) * 2000 + 1 * (j 0).val; omega
    | ⟨1, _⟩ => show win1_1.index t (1 : Fin 2) * 128 + 1 * (j 1).val = win1_4.index t (1 : Fin 2) * 128 + 1 * (j 1).val; omega
  · show V c main_v44 (((cfg1.win 2).blk t).view.emb (ix2 (j 0) (0 : Fin 1))) = V c main_v44 (ix2 ((((cfg1.win 4).blk t).view.emb j) 0) (0 : Fin 1))
    refine congrArg (V c main_v44) (funext fun a => Fin.ext ?_)
    match a with
    | ⟨0, _⟩ => show win1_2.index t (0 : Fin 2) * 2000 + 1 * (j 0).val = win1_4.index t (0 : Fin 2) * 2000 + 1 * (j 0).val; omega
    | ⟨1, _⟩ => show win1_2.index t (1 : Fin 2) * 1 + 1 * 0 = 0; omega
  · show V c main_v45 (((cfg1.win 3).blk t).view.emb (ix2 (0 : Fin 1) (j 1))) = V c main_v45 (ix2 (0 : Fin 1) ((((cfg1.win 4).blk t).view.emb j) 1))
    refine congrArg (V c main_v45) (funext fun a => Fin.ext ?_)
    match a with
    | ⟨0, _⟩ => show win1_3.index t (0 : Fin 2) * 1 + 1 * 0 = 0; omega
    | ⟨1, _⟩ => show win1_3.index t (1 : Fin 2) * 128 + 1 * (j 1).val = win1_4.index t (1 : Fin 2) * 128 + 1 * (j 1).val; omega

/-- An index of the output array is in point t's block iff each coordinate is in the block's range on its axis. -/
theorem mem_blk (t : Fin cfg1.N) (i : S50000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole main_v46).slice (win1_4.rect t)).set ↔ _
  rw [View.set_slice_whole, Rect.mem_set_unit]
  exact Iff.rfl

/-- Row r is in the block of point r / 2000: the write-backs cover the array. -/
theorem cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := idx_onto ⟨(i 0).val / 2000, by omega⟩
  have q0 : win1_4.index t (0 : Fin 2) = (i 0).val / 2000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 128 ≤ (i 1).val ∧ (i 1).val < win1_4.index t (1 : Fin 2) * 128 + 128; omega

/-- The output array after the region: the stage of the operand arrays as the region found them. -/
theorem array (c : Dev nD) :
    (dat1 (F := Ideal) V c).arrAt 4 cfg1.N = combine (V c main_v42) (V c main_v4) (V c main_v44) (V c main_v45) :=
  (dat1 (F := Ideal) V c).arrAt_eq_of_cover 4 _ (fun t _ => flushed V c t) cover

end Cert.KernelIdeal.Region1

end
-- ==== Proof.Region2.lean ====
/-
  Region 2 of the idealized kernel (the second layer's feature transform), from blocks to the whole array: whatever its operand arrays hold when
  the region is entered, its output array ends holding ONE function of them.

  The grid has 25 points. Point t stages rows 2000·t … 2000·t + 1999 of each row-indexed operand and of the output,
  and the whole of each operand that is not row-indexed; the body turns the staged blocks into the output block, and
  the block is written back over the same rows. An entry of the dense stage reads only its own row of the row-indexed
  operands, so what point t writes back is exactly rows 2000·t … of the stage applied to the WHOLE operands. Every
  row r lies in the block of point r / 2000, so the 25 write-backs cover the array, and the array ends at the stage
  of the whole operands.
-/
import proofs.«175317_j27779848471424_1_alg».proof.Proof.Gen.KernelIdeal.Frame
import proofs.«175317_j27779848471424_1_alg».proof.Proof.BlockBodies
import Idealize.ShloMosaic.Lib.Pipeline.Value

set_option maxRecDepth 16384

noncomputable section

namespace Cert.KernelIdeal.Region2

open Cert.KernelIdeal Cert.KernelIdeal.Gen Cert.Dense
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row operand's block moves with the output's along the rows and sits at
    column block 0, the weight's block never moves, and the output's row block index is at most 24. -/
theorem idx_facts : ∀ t : Fin cfg2.N, win2_0.index t (0 : Fin 2) = win2_2.index t (0 : Fin 2)
    ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 24 :=
  (by decide +kernel : ∀ t : Fin grid2.N, _)

/-- Every row block is some point's. -/
theorem idx_onto : ∀ q : Fin 25, ∃ t : Fin cfg2.N, win2_2.index t = ![q.val, 0] :=
  (by decide +kernel : ∀ q : Fin 25, ∃ t : Fin grid2.N, win2_2.index t = ![q.val, 0])

set_option maxHeartbeats 2000000 in
/-- What point t writes back is its rows of `rowDot` of the whole operands. -/
theorem flushed (c : Dev nD) (t : Fin cfg2.N) :
    (dat2 (F := Ideal) V c).flushed 2 t
      = ((cfg2.win 2).blk t).view.read (Elt Ideal) (rowDot (V c main_v46) (V c main_arg5)) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x128) hz]
  rw [Bodies.k2_pay1_eq]
  obtain ⟨e0, e1, e2, e3, e4, e5⟩ := idx_facts t
  funext j
  show rowDot (iblk2 V c 0 t) (iblk2 V c 1 t) j = rowDot (V c main_v46) (V c main_arg5) (((cfg2.win 2).blk t).view.emb j)
  refine rowDot_congr (R := 50000) (R' := 2000) (K := 128) (C := 128) (C' := 128) (V c main_v46) (iblk2 V c 0 t)
    (V c main_arg5) (iblk2 V c 1 t) (((cfg2.win 2).blk t).view.emb j) j (fun k => ?_) (fun k => ?_)
  · show V c main_v46 (((cfg2.win 0).blk t).view.emb (ix2 (j 0) k)) = V c main_v46 (ix2 ((((cfg2.win 2).blk t).view.emb j) 0) k)
    refine congrArg (V c main_v46) (funext fun a => Fin.ext ?_)
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 128 + 1 * k.val = k.val; omega
  · show V c main_arg5 (((cfg2.win 1).blk t).view.emb (ix2 k (j 1))) = V c main_arg5 (ix2 k ((((cfg2.win 2).blk t).view.emb j) 1))
    refine congrArg (V c main_arg5) (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega

/-- An index of the output array is in point t's block iff each coordinate is in the block's range on its axis. -/
theorem mem_blk (t : Fin cfg2.N) (i : S50000x128.Idx) :
    i ∈ ((cfg2.win 2).blk t).view.set ↔ ∀ a : Fin 2, win2_2.index t a * S2000x128.size a ≤ (i a).val
      ∧ (i a).val < win2_2.index t a * S2000x128.size a + S2000x128.size a := by
  show i ∈ ((View.whole main_v47).slice (win2_2.rect t)).set ↔ _
  rw [View.set_slice_whole, Rect.mem_set_unit]
  exact Iff.rfl

/-- Row r is in the block of point r / 2000: the write-backs cover the array. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := idx_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- The output array after the region: `rowDot` of the operand arrays as the region found them. -/
theorem array (c : Dev nD) :
    (dat2 (F := Ideal) V c).arrAt 2 cfg2.N = rowDot (V c main_v46) (V c main_arg5) :=
  (dat2 (F := Ideal) V c).arrAt_eq_of_cover 2 _ (fun t _ => flushed V c t) cover

end Cert.KernelIdeal.Region2

end
-- ==== Proof.Region3.lean ====
/-
  Region 3 of the idealized kernel (the second layer's combine), from blocks to the whole array: whatever its operand arrays hold when
  the region is entered, its output array ends holding ONE function of them.

  The grid has 25 points. Point t stages rows 2000·t … 2000·t + 1999 of each row-indexed operand and of the output,
  and the whole of each operand that is not row-indexed; the body turns the staged blocks into the output block, and
  the block is written back over the same rows. An entry of the dense stage reads only its own row of the row-indexed
  operands, so what point t writes back is exactly rows 2000·t … of the stage applied to the WHOLE operands. Every
  row r lies in the block of point r / 2000, so the 25 write-backs cover the array, and the array ends at the stage
  of the whole operands.
-/
import proofs.«175317_j27779848471424_1_alg».proof.Proof.Gen.KernelIdeal.Frame
import proofs.«175317_j27779848471424_1_alg».proof.Proof.BlockBodies
import Idealize.ShloMosaic.Lib.Pipeline.Value

set_option maxRecDepth 16384

noncomputable section

namespace Cert.KernelIdeal.Region3

open Cert.KernelIdeal Cert.KernelIdeal.Gen Cert.Dense
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-indexed operands' blocks move with the output's along the rows
    and sit at column block 0, the bias row's block never moves, and the output's row block index is at most 24. -/
theorem idx_facts : ∀ t : Fin cfg3.N, win3_0.index t (0 : Fin 2) = win3_4.index t (0 : Fin 2)
    ∧ win3_0.index t (1 : Fin 2) = 0
    ∧ win3_1.index t (0 : Fin 2) = win3_4.index t (0 : Fin 2) ∧ win3_1.index t (1 : Fin 2) = 0
    ∧ win3_2.index t (0 : Fin 2) = win3_4.index t (0 : Fin 2) ∧ win3_2.index t (1 : Fin 2) = 0
    ∧ win3_3.index t (0 : Fin 2) = 0 ∧ win3_3.index t (1 : Fin 2) = 0
    ∧ win3_4.index t (1 : Fin 2) = 0 ∧ win3_4.index t (0 : Fin 2) ≤ 24 :=
  (by decide +kernel : ∀ t : Fin grid3.N, _)

/-- Every row block is some point's. -/
theorem idx_onto : ∀ q : Fin 25, ∃ t : Fin cfg3.N, win3_4.index t = ![q.val, 0] :=
  (by decide +kernel : ∀ q : Fin 25, ∃ t : Fin grid3.N, win3_4.index t = ![q.val, 0])

set_option maxHeartbeats 2000000 in
/-- What point t writes back is its rows of `combine` of the whole operands. -/
theorem flushed (c : Dev nD) (t : Fin cfg3.N) :
    (dat3 (F := Ideal) V c).flushed 4 t
      = ((cfg3.win 4).blk t).view.read (Elt Ideal) (combine (V c main_v85) (V c main_v47) (V c main_v87) (V c main_v88)) := by
  show (cfg3.win 4).cut (grid3.coords t) ((dat3 V c).after 4 t) = _
  rw [after3_4]
  unfold out3_4
  rw [View.canon_unit_zero hz]
  simp only [View.ld_unit_zero (S := S2000x128) hz, View.ld_unit_zero (S := S2000x1) hz, View.ld_unit_zero (S := S1x128) hz]
  rw [Bodies.k3_pay1_eq]
  obtain ⟨e0, e1, e2, e3, e4, e5, e6, e7, e8, e9⟩ := idx_facts t
  funext j
  show combine (iblk3 V c 0 t) (iblk3 V c 1 t) (iblk3 V c 2 t) (iblk3 V c 3 t) j
    = combine (V c main_v85) (V c main_v47) (V c main_v87) (V c main_v88) (((cfg3.win 4).blk t).view.emb j)
  refine combine_congr (R := 50000) (R' := 2000) (C := 128) (C' := 128) (V c main_v85) (V c main_v47) (V c main_v87) (V c main_v88)
    (iblk3 V c 0 t) (iblk3 V c 1 t) (iblk3 V c 2 t) (iblk3 V c 3 t) (((cfg3.win 4).blk t).view.emb j) j ?_ ?_ ?_ ?_
  · show V c main_v85 (((cfg3.win 0).blk t).view.emb j) = V c main_v85 (((cfg3.win 4).blk t).view.emb j)
    refine congrArg (V c main_v85) (funext fun a => Fin.ext ?_)
    match a with
    | ⟨0, _⟩ => show win3_0.index t (0 : Fin 2) * 2000 + 1 * (j 0).val = win3_4.index t (0 : Fin 2) * 2000 + 1 * (j 0).val; omega
    | ⟨1, _⟩ => show win3_0.index t (1 : Fin 2) * 128 + 1 * (j 1).val = win3_4.index t (1 : Fin 2) * 128 + 1 * (j 1).val; omega
  · show V c main_v47 (((cfg3.win 1).blk t).view.emb j) = V c main_v47 (((cfg3.win 4).blk t).view.emb j)
    refine congrArg (V c main_v47) (funext fun a => Fin.ext ?_)
    match a with
    | ⟨0, _⟩ => show win3_1.index t (0 : Fin 2) * 2000 + 1 * (j 0).val = win3_4.index t (0 : Fin 2) * 2000 + 1 * (j 0).val; omega
    | ⟨1, _⟩ => show win3_1.index t (1 : Fin 2) * 128 + 1 * (j 1).val = win3_4.index t (1 : Fin 2) * 128 + 1 * (j 1).val; omega
  · show V c main_v87 (((cfg3.win 2).blk t).view.emb (ix2 (j 0) (0 : Fin 1))) = V c main_v87 (ix2 ((((cfg3.win 4).blk t).view.emb j) 0) (0 : Fin 1))
    refine congrArg (V c main_v87) (funext fun a => Fin.ext ?_)
    match a with
    | ⟨0, _⟩ => show win3_2.index t (0 : Fin 2) * 2000 + 1 * (j 0).val = win3_4.index t (0 : Fin 2) * 2000 + 1 * (j 0).val; omega
    | ⟨1, _⟩ => show win3_2.index t (1 : Fin 2) * 1 + 1 * 0 = 0; omega
  · show V c main_v88 (((cfg3.win 3).blk t).view.emb (ix2 (0 : Fin 1) (j 1))) = V c main_v88 (ix2 (0 : Fin 1) ((((cfg3.win 4).blk t).view.emb j) 1))
    refine congrArg (V c main_v88) (funext fun a => Fin.ext ?_)
    match a with
    | ⟨0, _⟩ => show win3_3.index t (0 : Fin 2) * 1 + 1 * 0 = 0; omega
    | ⟨1, _⟩ => show win3_3.index t (1 : Fin 2) * 128 + 1 * (j 1).val = win3_4.index t (1 : Fin 2) * 128 + 1 * (j 1).val; omega

/-- An index of the output array is in point t's block iff each coordinate is in the block's range on its axis. -/
theorem mem_blk (t : Fin cfg3.N) (i : S50000x128.Idx) :
    i ∈ ((cfg3.win 4).blk t).view.set ↔ ∀ a : Fin 2, win3_4.index t a * S2000x128.size a ≤ (i a).val
      ∧ (i a).val < win3_4.index t a * S2000x128.size a + S2000x128.size a := by
  show i ∈ ((View.whole main_v89).slice (win3_4.rect t)).set ↔ _
  rw [View.set_slice_whole, Rect.mem_set_unit]
  exact Iff.rfl

/-- Row r is in the block of point r / 2000: the write-backs cover the array. -/
theorem cover (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  obtain ⟨t, ht⟩ := idx_onto ⟨(i 0).val / 2000, by omega⟩
  have q0 : win3_4.index t (0 : Fin 2) = (i 0).val / 2000 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 128 ≤ (i 1).val ∧ (i 1).val < win3_4.index t (1 : Fin 2) * 128 + 128; omega

/-- The output array after the region: the stage of the operand arrays as the region found them. -/
theorem array (c : Dev nD) :
    (dat3 (F := Ideal) V c).arrAt 4 cfg3.N = combine (V c main_v85) (V c main_v47) (V c main_v87) (V c main_v88) :=
  (dat3 (F := Ideal) V c).arrAt_eq_of_cover 4 _ (fun t _ => flushed V c t) cover

end Cert.KernelIdeal.Region3

end
-- ==== Proof.Region4.lean ====
/-
  Region 4 of the idealized kernel (the output projection), from blocks to the whole array: whatever its operand arrays hold when
  the region is entered, its output array ends holding ONE function of them.

  The grid has 25 points. Point t stages rows 2000·t … 2000·t + 1999 of each row-indexed operand and of the output,
  and the whole of each operand that is not row-indexed; the body turns the staged blocks into the output block, and
  the block is written back over the same rows. An entry of the dense stage reads only its own row of the row-indexed
  operands, so what point t writes back is exactly rows 2000·t … of the stage applied to the WHOLE operands. Every
  row r lies in the block of point r / 2000, so the 25 write-backs cover the array, and the array ends at the stage
  of the whole operands.
-/
import proofs.«175317_j27779848471424_1_alg».proof.Proof.Gen.KernelIdeal.Frame
import proofs.«175317_j27779848471424_1_alg».proof.Proof.BlockBodies
import Idealize.ShloMosaic.Lib.Pipeline.Value

set_option maxRecDepth 16384

noncomputable section

namespace Cert.KernelIdeal.Region4

open Cert.KernelIdeal Cert.KernelIdeal.Gen Cert.Dense
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row operand's block moves with the output's along the rows and sits at
    column block 0, the weight's and the bias row's blocks never move, and the output's row block index is at most 24. -/
theorem idx_facts : ∀ t : Fin cfg4.N, win4_0.index t (0 : Fin 2) = win4_3.index t (0 : Fin 2)
    ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (1 : Fin 2) = 0 ∧ win4_3.index t (0 : Fin 2) ≤ 24 :=
  (by decide +kernel : ∀ t : Fin grid4.N, _)

/-- Every row block is some point's. -/
theorem idx_onto : ∀ q : Fin 25, ∃ t : Fin cfg4.N, win4_3.index t = ![q.val, 0] :=
  (by decide +kernel : ∀ q : Fin 25, ∃ t : Fin grid4.N, win4_3.index t = ![q.val, 0])

set_option maxHeartbeats 2000000 in
/-- What point t writes back is its rows of `rowDotBias` of the whole operands. -/
theorem flushed (c : Dev nD) (t : Fin cfg4.N) :
    (dat4 (F := Ideal) V c).flushed 3 t
      = ((cfg4.win 3).blk t).view.read (Elt Ideal) (rowDotBias (V c main_v89) (V c main_arg7) (V c main_v90)) := by
  show (cfg4.win 3).cut (grid4.coords t) ((dat4 V c).after 3 t) = _
  rw [after4_3]
  unfold out4_3
  rw [View.canon_unit_zero hz]
  simp only [View.ld_unit_zero (S := S2000x128) hz, View.ld_unit_zero (S := S128x128) hz, View.ld_unit_zero (S := S1x128) hz]
  rw [Bodies.k4_pay1_eq]
  obtain ⟨e0, e1, e2, e3, e4, e5, e6, e7⟩ := idx_facts t
  funext j
  show rowDotBias (iblk4 V c 0 t) (iblk4 V c 1 t) (iblk4 V c 2 t) j
    = rowDotBias (V c main_v89) (V c main_arg7) (V c main_v90) (((cfg4.win 3).blk t).view.emb j)
  refine rowDotBias_congr (R := 50000) (R' := 2000) (K := 128) (C := 128) (C' := 128) (V c main_v89) (iblk4 V c 0 t)
    (V c main_arg7) (iblk4 V c 1 t) (V c main_v90) (iblk4 V c 2 t) (((cfg4.win 3).blk t).view.emb j) j (fun k => ?_) (fun k => ?_) ?_
  · show V c main_v89 (((cfg4.win 0).blk t).view.emb (ix2 (j 0) k)) = V c main_v89 (ix2 ((((cfg4.win 3).blk t).view.emb j) 0) k)
    refine congrArg (V c main_v89) (funext fun a => Fin.ext ?_)
    match a with
    | ⟨0, _⟩ => show win4_0.index t (0 : Fin 2) * 2000 + 1 * (j 0).val = win4_3.index t (0 : Fin 2) * 2000 + 1 * (j 0).val; omega
    | ⟨1, _⟩ => show win4_0.index t (1 : Fin 2) * 128 + 1 * k.val = k.val; omega
  · show V c main_arg7 (((cfg4.win 1).blk t).view.emb (ix2 k (j 1))) = V c main_arg7 (ix2 k ((((cfg4.win 3).blk t).view.emb j) 1))
    refine congrArg (V c main_arg7) (funext fun a => Fin.ext ?_)
    match a with
    | ⟨0, _⟩ => show win4_1.index t (0 : Fin 2) * 128 + 1 * k.val = k.val; omega
    | ⟨1, _⟩ => show win4_1.index t (1 : Fin 2) * 128 + 1 * (j 1).val = win4_3.index t (1 : Fin 2) * 128 + 1 * (j 1).val; omega
  · show V c main_v90 (((cfg4.win 2).blk t).view.emb (ix2 (0 : Fin 1) (j 1))) = V c main_v90 (ix2 (0 : Fin 1) ((((cfg4.win 3).blk t).view.emb j) 1))
    refine congrArg (V c main_v90) (funext fun a => Fin.ext ?_)
    match a with
    | ⟨0, _⟩ => show win4_2.index t (0 : Fin 2) * 1 + 1 * 0 = 0; omega
    | ⟨1, _⟩ => show win4_2.index t (1 : Fin 2) * 128 + 1 * (j 1).val = win4_3.index t (1 : Fin 2) * 128 + 1 * (j 1).val; omega

/-- An index of the output array is in point t's block iff each coordinate is in the block's range on its axis. -/
theorem mem_blk (t : Fin cfg4.N) (i : S50000x128.Idx) :
    i ∈ ((cfg4.win 3).blk t).view.set ↔ ∀ a : Fin 2, win4_3.index t a * S2000x128.size a ≤ (i a).val
      ∧ (i a).val < win4_3.index t a * S2000x128.size a + S2000x128.size a := by
  show i ∈ ((View.whole main_v91).slice (win4_3.rect t)).set ↔ _
  rw [View.set_slice_whole, Rect.mem_set_unit]
  exact Iff.rfl

/-- Row r is in the block of point r / 2000: the write-backs cover the array. -/
theorem cover (i : S50000x128.Idx) :
    ∃ t : Fin cfg4.N, (cfg4.win 3).flush t = true ∧ i ∈ ((cfg4.win 3).blk t).view.set := by
  have hi0 : (i 0).val < 50000 := (i 0).isLt
  have hi1 : (i 1).val < 128 := (i 1).isLt
  obtain ⟨t, ht⟩ := idx_onto ⟨(i 0).val / 2000, by omega⟩
  have q0 : win4_3.index t (0 : Fin 2) = (i 0).val / 2000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 128 ≤ (i 1).val ∧ (i 1).val < win4_3.index t (1 : Fin 2) * 128 + 128; omega

/-- The output array after the region: the stage of the operand arrays as the region found them. -/
theorem array (c : Dev nD) :
    (dat4 (F := Ideal) V c).arrAt 3 cfg4.N = rowDotBias (V c main_v89) (V c main_arg7) (V c main_v90) :=
  (dat4 (F := Ideal) V c).arrAt_eq_of_cover 3 _ (fun t _ => flushed V c t) cover

end Cert.KernelIdeal.Region4

end
-- ==== Proof.RefStages.lean ====
/-
  The reference's stages are the dense stages of its own operands. The reference is written with whole-array host
  operations: a product of two matrices; sums and products of arrays after broadcasting a vector along the rows or
  along the columns; a maximum with a broadcast zero. Read at an entry (r, c):

  * the host product of x and w is the sum over k of x(r, k) · w(k, c): `rowDot x w`;
  * a vector of per-row coefficients, broadcast to a column and then over the columns, contributes its entry r; the
    bias vector, broadcast to a row and then over the rows, contributes its entry c. The kernel instead RESHAPES
    the two vectors to a column [50000, 1] and a row [1, 128]; a reshape to a column read at (r, 0) and to a row
    read at (0, c) are the same two entries. So the reference's add, add, maximum chain is `combine`;
  * likewise the output projection's product plus broadcast bias is `rowDotBias`.
-/
import proofs.«175317_j27779848471424_1_alg».proof.Proof.Gen.ReferenceIdeal.Read
import proofs.«175317_j27779848471424_1_alg».proof.KernelIdeal
import proofs.«175317_j27779848471424_1_alg».proof.Proof.DenseSpec
import proofs.«175317_j27779848471424_1_alg».proof.Proof.LibColumnForms
import Idealize.ShloMosaic.Lib.Pipeline.Value
import Idealize.ShloMosaic.Lib.ValueLayout
import Idealize.ShloMosaic.Lib.ValueIdx
import Idealize.ShloMosaic.PureOps.Ideal.Laws

noncomputable section

namespace Cert.RefStages

open Idealize.ShloMosaic Idealize.ShloMosaic.ValueIdx Idealize.ShloMosaic.ValueLayout Cert.Dense

/-- The host product of a 50000-row array and a weight, at the extended reals, is `rowDot`. The reference's first
    product is this operation of its first and fourth arguments, and its later products are the same operation of
    other operands, so the fact is stated for any two operands. -/
theorem rowDot_eq_dot (x : FVec Ideal Cert.ReferenceIdeal.S50000x128 .f32) (w : FVec Ideal Cert.ReferenceIdeal.S128x128 .f32) :
    rowDot x w = Cert.ReferenceIdeal.Read.val_main_v4 (F := Ideal) x w := by
  funext i
  rw [Cert.ReferenceIdeal.Read.val_main_v4_apply]
  unfold rowDot
  refine Finset.sum_congr rfl fun k _ => ?_
  have el : Cert.ReferenceIdeal.Read.lidx_main_v4 i k = ix2 (i 0) k := funext fun a => Fin.ext (by match a with | ⟨0, _⟩ => rfl | ⟨1, _⟩ => rfl)
  have er : Cert.ReferenceIdeal.Read.ridx_main_v4 i k = ix2 k (i 1) := funext fun a => Fin.ext (by match a with | ⟨0, _⟩ => rfl | ⟨1, _⟩ => rfl)
  rw [el, er]
  rfl

/-- The first layer's last step: `combine` of the aggregated messages, the transformed features, the squared coefficient as a column and the bias as a row is the reference's clipped sum — its two broadcasts carry the coefficient of row r and the bias of column c to entry (r, c), where the column and the row are read. -/
theorem layer1_combine (x0 : FVec Ideal Cert.ReferenceIdeal.S50000x128 .f32) (x1 : (⟨Cert.ReferenceIdeal.S2x600000, .i32⟩ : BufTy).Contents (Elt Ideal)) (x2 : FVec Ideal Cert.ReferenceIdeal.S600000 .f32)
    (x3 : FVec Ideal Cert.ReferenceIdeal.S128x128 .f32) (x4 : FVec Ideal Cert.ReferenceIdeal.S128 .f32)
    (hcol : Cert.KernelIdeal.S50000.ShapeCasts Cert.KernelIdeal.S50000x1) (hrow : Cert.KernelIdeal.S128.ShapeCasts Cert.KernelIdeal.S1x128) :
    combine (Cert.ReferenceIdeal.Read.val_main_v42 (F := Ideal) x0 x1 x2 x3) (Cert.ReferenceIdeal.Read.val_main_v4 (F := Ideal) x0 x3)
      (shapeCast Cert.KernelIdeal.S50000x1 (Cert.ReferenceIdeal.Read.val_main_v43 (F := Ideal) x1 x2) hcol)
      (shapeCast Cert.KernelIdeal.S1x128 x4 hrow)
    = Cert.ReferenceIdeal.Read.val_main_v51 (F := Ideal) x0 x1 x2 x3 x4 := by
  funext i
  obtain ⟨p, q, rfl⟩ : ∃ (p : Fin 50000) (q : Fin 128), i = ix2 p q := ⟨i 0, i 1, eq_ix2 i⟩
  rw [Cert.ReferenceIdeal.Read.val_main_v51_apply, Cert.ReferenceIdeal.Read.val_main_v50_apply, Cert.ReferenceIdeal.Read.val_main_v47_apply, Cert.ReferenceIdeal.Read.val_main_v46_apply, Cert.ReferenceIdeal.Read.val_main_v45_apply,
    Cert.ReferenceIdeal.Read.val_main_v44_apply, Cert.ReferenceIdeal.Read.val_main_v49_apply, Cert.ReferenceIdeal.Read.val_main_v48_apply, Cert.ReferenceIdeal.Read.val_main_call1_v0_apply, Cert.ReferenceIdeal.Read.val_main_call1_cst_apply]
  unfold combine
  rw [shapeCast_a_a1_apply, shapeCast_a_1a_apply]
  have e1 : Cert.ReferenceIdeal.Read.idx_main_v44 (Cert.ReferenceIdeal.Read.idx_main_v45 (ix2 p q)) = ix1 p :=
    funext fun a => Fin.ext (by match a with | ⟨0, _⟩ => rfl)
  have e2 : Cert.ReferenceIdeal.Read.idx_main_v48 (Cert.ReferenceIdeal.Read.idx_main_v49 (ix2 p q)) = ix1 q :=
    funext fun a => Fin.ext (by match a with | ⟨0, _⟩ => rfl)
  rw [e1, e2]
  rfl

/-- The second layer's last step, the same fact one layer on. -/
theorem layer2_combine (x0 : FVec Ideal Cert.ReferenceIdeal.S50000x128 .f32) (x1 : (⟨Cert.ReferenceIdeal.S2x600000, .i32⟩ : BufTy).Contents (Elt Ideal)) (x2 : FVec Ideal Cert.ReferenceIdeal.S600000 .f32)
    (x3 : FVec Ideal Cert.ReferenceIdeal.S128x128 .f32) (x4 : FVec Ideal Cert.ReferenceIdeal.S128 .f32) (x5 : FVec Ideal Cert.ReferenceIdeal.S128x128 .f32) (x6 : FVec Ideal Cert.ReferenceIdeal.S128 .f32)
    (hcol : Cert.KernelIdeal.S50000.ShapeCasts Cert.KernelIdeal.S50000x1) (hrow : Cert.KernelIdeal.S128.ShapeCasts Cert.KernelIdeal.S1x128) :
    combine (Cert.ReferenceIdeal.Read.val_main_v90 (F := Ideal) x0 x1 x2 x3 x4 x5) (Cert.ReferenceIdeal.Read.val_main_v52 (F := Ideal) x0 x1 x2 x3 x4 x5)
      (shapeCast Cert.KernelIdeal.S50000x1 (Cert.ReferenceIdeal.Read.val_main_v91 (F := Ideal) x1 x2) hcol)
      (shapeCast Cert.KernelIdeal.S1x128 x6 hrow)
    = Cert.ReferenceIdeal.Read.val_main_v99 (F := Ideal) x0 x1 x2 x3 x4 x5 x6 := by
  funext i
  obtain ⟨p, q, rfl⟩ : ∃ (p : Fin 50000) (q : Fin 128), i = ix2 p q := ⟨i 0, i 1, eq_ix2 i⟩
  rw [Cert.ReferenceIdeal.Read.val_main_v99_apply, Cert.ReferenceIdeal.Read.val_main_v98_apply, Cert.ReferenceIdeal.Read.val_main_v95_apply, Cert.ReferenceIdeal.Read.val_main_v94_apply, Cert.ReferenceIdeal.Read.val_main_v93_apply,
    Cert.ReferenceIdeal.Read.val_main_v92_apply, Cert.ReferenceIdeal.Read.val_main_v97_apply, Cert.ReferenceIdeal.Read.val_main_v96_apply, Cert.ReferenceIdeal.Read.val_main_call3_v0_apply, Cert.ReferenceIdeal.Read.val_main_call3_cst_apply]
  unfold combine
  rw [shapeCast_a_a1_apply, shapeCast_a_1a_apply]
  have e1 : Cert.ReferenceIdeal.Read.idx_main_v92 (Cert.ReferenceIdeal.Read.idx_main_v93 (ix2 p q)) = ix1 p :=
    funext fun a => Fin.ext (by match a with | ⟨0, _⟩ => rfl)
  have e2 : Cert.ReferenceIdeal.Read.idx_main_v96 (Cert.ReferenceIdeal.Read.idx_main_v97 (ix2 p q)) = ix1 q :=
    funext fun a => Fin.ext (by match a with | ⟨0, _⟩ => rfl)
  rw [e1, e2]
  rfl

/-- The output projection: the product plus the bias vector reshaped to a row is the host product plus the bias
    vector broadcast to a row and then over the rows. -/
theorem projection (h : FVec Ideal Cert.ReferenceIdeal.S50000x128 .f32) (w : FVec Ideal Cert.ReferenceIdeal.S128x128 .f32) (b : FVec Ideal Cert.ReferenceIdeal.S128 .f32)
    (hrow : Cert.KernelIdeal.S128.ShapeCasts Cert.KernelIdeal.S1x128) :
    rowDotBias h w (shapeCast Cert.KernelIdeal.S1x128 b hrow)
      = addf (Cert.ReferenceIdeal.Read.val_main_v4 (F := Ideal) h w) (Cert.ReferenceIdeal.Read.val_main_v102 (F := Ideal) b) := by
  funext i
  obtain ⟨p, q, rfl⟩ : ∃ (p : Fin 50000) (q : Fin 128), i = ix2 p q := ⟨i 0, i 1, eq_ix2 i⟩
  unfold rowDotBias
  rw [rowDot_eq_dot, shapeCast_a_1a_apply, addf_apply, Cert.ReferenceIdeal.Read.val_main_v102_apply, Cert.ReferenceIdeal.Read.val_main_v101_apply]
  have e : Cert.ReferenceIdeal.Read.idx_main_v101 (Cert.ReferenceIdeal.Read.idx_main_v102 (ix2 p q)) = ix1 q :=
    funext fun a => Fin.ext (by match a with | ⟨0, _⟩ => rfl)
  rw [e]

end Cert.RefStages

end
-- ==== Proof.HostStretches.lean ====
/-
  The idealized kernel's stretches of host operations, each read from ANY contents it may start from, against the
  reference's stages. Between the pipelined regions the kernel runs the same host operations the reference runs, on
  the same operands: the edge list split into sources and destinations; per layer the weighted degree plus one
  (a scatter-add of the edge weights at the destinations), its reciprocal root where positive and zero elsewhere,
  the edge coefficient (the root at the source, times the weight, times the root at the destination), the
  transformed features gathered at the sources, scaled, and scatter-added at the destinations; and the squared
  root. So each buffer a stretch writes holds the reference's stage of the same name, provided the buffers the
  stretch reads do: the scatters and gathers are never opened, only matched. Two buffers differ in form: where the
  reference broadcasts the squared root and the bias in two steps, the kernel reshapes them to a column and a row.
  The other lemmas say which buffers a stretch leaves alone.
-/
import proofs.«175317_j27779848471424_1_alg».proof.Proof.Gen.KernelIdeal.Launch
import proofs.«175317_j27779848471424_1_alg».proof.Proof.Gen.ReferenceIdeal.Read
import Idealize.ShloMosaic.Lib.StableHlo.Run

set_option maxHeartbeats 4000000

noncomputable section

namespace Cert.KernelIdeal.Stretches

open Cert.KernelIdeal Cert.KernelIdeal.Gen Idealize.ShloMosaic Idealize.ShloMosaic.TcCoe Idealize.SL.Sem
open Idealize.ShloMosaic.StableHlo

/-! ## The first stretch: sources and destinations of the edges -/

/-- The edges' sources: row 0 of the edge list. -/
theorem sources (X : Valuation τ sig (Elt Ideal)) (a1 : (⟨Cert.ReferenceIdeal.S2x600000, .i32⟩ : BufTy).Contents (Elt Ideal)) (h : X (Proc.devRef .tc main_arg1) = a1) :
    after hostOps0 X (Proc.devRef .tc main_v1) = Cert.ReferenceIdeal.Read.val_main_v1 (F := Ideal) a1 := by
  after_results_simp
  rw [h]
  rfl

/-- The edges' destinations: row 1 of the edge list. -/
theorem destinations (X : Valuation τ sig (Elt Ideal)) (a1 : (⟨Cert.ReferenceIdeal.S2x600000, .i32⟩ : BufTy).Contents (Elt Ideal)) (h : X (Proc.devRef .tc main_arg1) = a1) :
    after hostOps0 X (Proc.devRef .tc main_v3) = Cert.ReferenceIdeal.Read.val_main_v3 (F := Ideal) a1 := by
  after_results_simp
  rw [h]
  rfl

theorem keep0_main_arg0 (X : Valuation τ sig (Elt Ideal)) : after hostOps0 X (Proc.devRef .tc main_arg0) = X (Proc.devRef .tc main_arg0) := by after_results_simp
theorem keep0_main_arg1 (X : Valuation τ sig (Elt Ideal)) : after hostOps0 X (Proc.devRef .tc main_arg1) = X (Proc.devRef .tc main_arg1) := by after_results_simp
theorem keep0_main_arg2 (X : Valuation τ sig (Elt Ideal)) : after hostOps0 X (Proc.devRef .tc main_arg2) = X (Proc.devRef .tc main_arg2) := by after_results_simp
theorem keep0_main_arg3 (X : Valuation τ sig (Elt Ideal)) : after hostOps0 X (Proc.devRef .tc main_arg3) = X (Proc.devRef .tc main_arg3) := by after_results_simp
theorem keep0_main_arg4 (X : Valuation τ sig (Elt Ideal)) : after hostOps0 X (Proc.devRef .tc main_arg4) = X (Proc.devRef .tc main_arg4) := by after_results_simp
theorem keep0_main_arg5 (X : Valuation τ sig (Elt Ideal)) : after hostOps0 X (Proc.devRef .tc main_arg5) = X (Proc.devRef .tc main_arg5) := by after_results_simp
theorem keep0_main_arg6 (X : Valuation τ sig (Elt Ideal)) : after hostOps0 X (Proc.devRef .tc main_arg6) = X (Proc.devRef .tc main_arg6) := by after_results_simp
theorem keep0_main_arg7 (X : Valuation τ sig (Elt Ideal)) : after hostOps0 X (Proc.devRef .tc main_arg7) = X (Proc.devRef .tc main_arg7) := by after_results_simp
theorem keep0_main_arg8 (X : Valuation τ sig (Elt Ideal)) : after hostOps0 X (Proc.devRef .tc main_arg8) = X (Proc.devRef .tc main_arg8) := by after_results_simp

/-! ## Layer 1: the stretches between its feature transform and its combine -/

/-- Before the call: the mask deg + 1 > 0. -/
theorem mask1 (X : Valuation τ sig (Elt Ideal)) (a1 : (⟨Cert.ReferenceIdeal.S2x600000, .i32⟩ : BufTy).Contents (Elt Ideal)) (a2 : FVec Ideal Cert.ReferenceIdeal.S600000 .f32)
    (h3 : X (Proc.devRef .tc main_v3) = Cert.ReferenceIdeal.Read.val_main_v3 (F := Ideal) a1) (h2 : X (Proc.devRef .tc main_arg2) = a2) :
    after hostOps1 X (Proc.devRef .tc main_v11) = Cert.ReferenceIdeal.Read.val_main_v11 (F := Ideal) a1 a2 := by
  after_results_simp
  rw [h3, h2]
  rfl

/-- Before the call: the reciprocal root of deg + 1. -/
theorem rroot1 (X : Valuation τ sig (Elt Ideal)) (a1 : (⟨Cert.ReferenceIdeal.S2x600000, .i32⟩ : BufTy).Contents (Elt Ideal)) (a2 : FVec Ideal Cert.ReferenceIdeal.S600000 .f32)
    (h3 : X (Proc.devRef .tc main_v3) = Cert.ReferenceIdeal.Read.val_main_v3 (F := Ideal) a1) (h2 : X (Proc.devRef .tc main_arg2) = a2) :
    after hostOps1 X (Proc.devRef .tc main_v12) = Cert.ReferenceIdeal.Read.val_main_v12 (F := Ideal) a1 a2 := by
  after_results_simp
  rw [h3, h2]
  rfl

/-- Before the call: the zero the call falls back to. -/
theorem zero1 (X : Valuation τ sig (Elt Ideal)) :
    after hostOps1 X (Proc.devRef .tc main_cst_2) = Cert.ReferenceIdeal.Read.val_main_cst_2 (F := Ideal) := by
  after_results_simp
  rfl

/-- The call alone, from any contents: a select of the mask, the root and the broadcast fallback. The typed references
    of a called function move values along type equations that are identities at literal buffers. -/
theorem where1_raw (Y : Valuation τ sig (Elt Ideal)) :
    after hostOps1_1 Y (Proc.devRef .tc main_v13)
      = select (Y (Proc.devRef .tc main_v11)) (Y (Proc.devRef .tc main_v12)) (broadcastInDim S50000 ![] bcast_S_S50000 (id (Y (Proc.devRef .tc main_cst_2)))) := by
  after_results_simp
  rfl

/-- The call: the symmetric-normalization coefficient deg^(-1/2), zero where deg + 1 is not positive. -/
theorem coeff1 (Y : Valuation τ sig (Elt Ideal)) (a1 : (⟨Cert.ReferenceIdeal.S2x600000, .i32⟩ : BufTy).Contents (Elt Ideal)) (a2 : FVec Ideal Cert.ReferenceIdeal.S600000 .f32)
    (h11 : Y (Proc.devRef .tc main_v11) = Cert.ReferenceIdeal.Read.val_main_v11 (F := Ideal) a1 a2) (h12 : Y (Proc.devRef .tc main_v12) = Cert.ReferenceIdeal.Read.val_main_v12 (F := Ideal) a1 a2)
    (hc : Y (Proc.devRef .tc main_cst_2) = Cert.ReferenceIdeal.Read.val_main_cst_2 (F := Ideal)) :
    after hostOps1_1 Y (Proc.devRef .tc main_v13) = Cert.ReferenceIdeal.Read.val_main_v13 (F := Ideal) a1 a2 := by
  rw [where1_raw, h11, h12, hc]
  rfl

/-- After the call: the aggregated messages, from the coefficient, the transformed features and the edge arrays. -/
theorem aggregate1 (Z : Valuation τ sig (Elt Ideal)) (a0 : FVec Ideal Cert.ReferenceIdeal.S50000x128 .f32) (a1 : (⟨Cert.ReferenceIdeal.S2x600000, .i32⟩ : BufTy).Contents (Elt Ideal)) (a2 : FVec Ideal Cert.ReferenceIdeal.S600000 .f32) (a3 : FVec Ideal Cert.ReferenceIdeal.S128x128 .f32)
    (h13 : Z (Proc.devRef .tc main_v13) = Cert.ReferenceIdeal.Read.val_main_v13 (F := Ideal) a1 a2) (h4 : Z (Proc.devRef .tc main_v4) = Cert.ReferenceIdeal.Read.val_main_v4 (F := Ideal) a0 a3)
    (h1 : Z (Proc.devRef .tc main_v1) = Cert.ReferenceIdeal.Read.val_main_v1 (F := Ideal) a1) (h3 : Z (Proc.devRef .tc main_v3) = Cert.ReferenceIdeal.Read.val_main_v3 (F := Ideal) a1)
    (h2 : Z (Proc.devRef .tc main_arg2) = a2) :
    after hostOps1_2 Z (Proc.devRef .tc main_v42) = Cert.ReferenceIdeal.Read.val_main_v42 (F := Ideal) a0 a1 a2 a3 := by
  after_results_simp
  rw [h13, h4, h1, h3, h2]
  rfl

/-- After the call: the squared coefficient, reshaped to a column. -/
theorem sqcol1 (Z : Valuation τ sig (Elt Ideal)) (a1 : (⟨Cert.ReferenceIdeal.S2x600000, .i32⟩ : BufTy).Contents (Elt Ideal)) (a2 : FVec Ideal Cert.ReferenceIdeal.S600000 .f32)
    (h13 : Z (Proc.devRef .tc main_v13) = Cert.ReferenceIdeal.Read.val_main_v13 (F := Ideal) a1 a2) :
    after hostOps1_2 Z (Proc.devRef .tc main_v44) = shapeCast S50000x1 (Cert.ReferenceIdeal.Read.val_main_v43 (F := Ideal) a1 a2) shapeCasts_S50000_S50000x1 := by
  after_results_simp
  rw [h13]
  rfl

/-- After the call: the layer's bias, reshaped to a row. -/
theorem biasrow1 (Z : Valuation τ sig (Elt Ideal)) (b : FVec Ideal Cert.ReferenceIdeal.S128 .f32) (hb : Z (Proc.devRef .tc main_arg4) = b) :
    after hostOps1_2 Z (Proc.devRef .tc main_v45) = shapeCast S1x128 b shapeCasts_S128_S1x128 := by
  after_results_simp
  rw [hb]
  rfl

theorem keepAB1_main_v1 (X : Valuation τ sig (Elt Ideal)) : after hostOps1_1 (after hostOps1 X) (Proc.devRef .tc main_v1) = X (Proc.devRef .tc main_v1) := by after_results_simp
theorem keepAB1_main_v3 (X : Valuation τ sig (Elt Ideal)) : after hostOps1_1 (after hostOps1 X) (Proc.devRef .tc main_v3) = X (Proc.devRef .tc main_v3) := by after_results_simp
theorem keepAB1_main_v4 (X : Valuation τ sig (Elt Ideal)) : after hostOps1_1 (after hostOps1 X) (Proc.devRef .tc main_v4) = X (Proc.devRef .tc main_v4) := by after_results_simp
theorem keepAB1_main_arg2 (X : Valuation τ sig (Elt Ideal)) : after hostOps1_1 (after hostOps1 X) (Proc.devRef .tc main_arg2) = X (Proc.devRef .tc main_arg2) := by after_results_simp
theorem keepAB1_main_arg4 (X : Valuation τ sig (Elt Ideal)) : after hostOps1_1 (after hostOps1 X) (Proc.devRef .tc main_arg4) = X (Proc.devRef .tc main_arg4) := by after_results_simp
theorem keepABC1_main_v4 (X : Valuation τ sig (Elt Ideal)) : after hostOps1_2 (after hostOps1_1 (after hostOps1 X)) (Proc.devRef .tc main_v4) = X (Proc.devRef .tc main_v4) := by after_results_simp
theorem keepABC1_main_v1 (X : Valuation τ sig (Elt Ideal)) : after hostOps1_2 (after hostOps1_1 (after hostOps1 X)) (Proc.devRef .tc main_v1) = X (Proc.devRef .tc main_v1) := by after_results_simp
theorem keepABC1_main_v3 (X : Valuation τ sig (Elt Ideal)) : after hostOps1_2 (after hostOps1_1 (after hostOps1 X)) (Proc.devRef .tc main_v3) = X (Proc.devRef .tc main_v3) := by after_results_simp
theorem keepABC1_main_arg2 (X : Valuation τ sig (Elt Ideal)) : after hostOps1_2 (after hostOps1_1 (after hostOps1 X)) (Proc.devRef .tc main_arg2) = X (Proc.devRef .tc main_arg2) := by after_results_simp
theorem keepABC1_main_arg5 (X : Valuation τ sig (Elt Ideal)) : after hostOps1_2 (after hostOps1_1 (after hostOps1 X)) (Proc.devRef .tc main_arg5) = X (Proc.devRef .tc main_arg5) := by after_results_simp
theorem keepABC1_main_arg6 (X : Valuation τ sig (Elt Ideal)) : after hostOps1_2 (after hostOps1_1 (after hostOps1 X)) (Proc.devRef .tc main_arg6) = X (Proc.devRef .tc main_arg6) := by after_results_simp
theorem keepABC1_main_arg7 (X : Valuation τ sig (Elt Ideal)) : after hostOps1_2 (after hostOps1_1 (after hostOps1 X)) (Proc.devRef .tc main_arg7) = X (Proc.devRef .tc main_arg7) := by after_results_simp
theorem keepABC1_main_arg8 (X : Valuation τ sig (Elt Ideal)) : after hostOps1_2 (after hostOps1_1 (after hostOps1 X)) (Proc.devRef .tc main_arg8) = X (Proc.devRef .tc main_arg8) := by after_results_simp

/-! ## Layer 2: the stretches between its feature transform and its combine -/

/-- Before the call: the mask deg + 1 > 0. -/
theorem mask2 (X : Valuation τ sig (Elt Ideal)) (a1 : (⟨Cert.ReferenceIdeal.S2x600000, .i32⟩ : BufTy).Contents (Elt Ideal)) (a2 : FVec Ideal Cert.ReferenceIdeal.S600000 .f32)
    (h3 : X (Proc.devRef .tc main_v3) = Cert.ReferenceIdeal.Read.val_main_v3 (F := Ideal) a1) (h2 : X (Proc.devRef .tc main_arg2) = a2) :
    after hostOps3 X (Proc.devRef .tc main_v54) = Cert.ReferenceIdeal.Read.val_main_v59 (F := Ideal) a1 a2 := by
  after_results_simp
  rw [h3, h2]
  rfl

/-- Before the call: the reciprocal root of deg + 1. -/
theorem rroot2 (X : Valuation τ sig (Elt Ideal)) (a1 : (⟨Cert.ReferenceIdeal.S2x600000, .i32⟩ : BufTy).Contents (Elt Ideal)) (a2 : FVec Ideal Cert.ReferenceIdeal.S600000 .f32)
    (h3 : X (Proc.devRef .tc main_v3) = Cert.ReferenceIdeal.Read.val_main_v3 (F := Ideal) a1) (h2 : X (Proc.devRef .tc main_arg2) = a2) :
    after hostOps3 X (Proc.devRef .tc main_v55) = Cert.ReferenceIdeal.Read.val_main_v60 (F := Ideal) a1 a2 := by
  after_results_simp
  rw [h3, h2]
  rfl

/-- Before the call: the zero the call falls back to. -/
theorem zero2 (X : Valuation τ sig (Elt Ideal)) :
    after hostOps3 X (Proc.devRef .tc main_cst_12) = Cert.ReferenceIdeal.Read.val_main_cst_12 (F := Ideal) := by
  after_results_simp
  rfl

/-- The call alone, from any contents: a select of the mask, the root and the broadcast fallback. The typed references
    of a called function move values along type equations that are identities at literal buffers. -/
theorem where2_raw (Y : Valuation τ sig (Elt Ideal)) :
    after hostOps3_1 Y (Proc.devRef .tc main_v56)
      = select (Y (Proc.devRef .tc main_v54)) (Y (Proc.devRef .tc main_v55)) (broadcastInDim S50000 ![] bcast_S_S50000 (id (Y (Proc.devRef .tc main_cst_12)))) := by
  after_results_simp
  rfl

/-- The call: the symmetric-normalization coefficient deg^(-1/2), zero where deg + 1 is not positive. -/
theorem coeff2 (Y : Valuation τ sig (Elt Ideal)) (a1 : (⟨Cert.ReferenceIdeal.S2x600000, .i32⟩ : BufTy).Contents (Elt Ideal)) (a2 : FVec Ideal Cert.ReferenceIdeal.S600000 .f32)
    (h11 : Y (Proc.devRef .tc main_v54) = Cert.ReferenceIdeal.Read.val_main_v59 (F := Ideal) a1 a2) (h12 : Y (Proc.devRef .tc main_v55) = Cert.ReferenceIdeal.Read.val_main_v60 (F := Ideal) a1 a2)
    (hc : Y (Proc.devRef .tc main_cst_12) = Cert.ReferenceIdeal.Read.val_main_cst_12 (F := Ideal)) :
    after hostOps3_1 Y (Proc.devRef .tc main_v56) = Cert.ReferenceIdeal.Read.val_main_v61 (F := Ideal) a1 a2 := by
  rw [where2_raw, h11, h12, hc]
  rfl

/-- After the call: the aggregated messages, from the coefficient, the transformed features and the edge arrays. -/
theorem aggregate2 (Z : Valuation τ sig (Elt Ideal)) (a0 : FVec Ideal Cert.ReferenceIdeal.S50000x128 .f32) (a1 : (⟨Cert.ReferenceIdeal.S2x600000, .i32⟩ : BufTy).Contents (Elt Ideal)) (a2 : FVec Ideal Cert.ReferenceIdeal.S600000 .f32) (a3 : FVec Ideal Cert.ReferenceIdeal.S128x128 .f32) (a4 : FVec Ideal Cert.ReferenceIdeal.S128 .f32) (a5 : FVec Ideal Cert.ReferenceIdeal.S128x128 .f32)
    (h13 : Z (Proc.devRef .tc main_v56) = Cert.ReferenceIdeal.Read.val_main_v61 (F := Ideal) a1 a2) (h4 : Z (Proc.devRef .tc main_v47) = Cert.ReferenceIdeal.Read.val_main_v52 (F := Ideal) a0 a1 a2 a3 a4 a5)
    (h1 : Z (Proc.devRef .tc main_v1) = Cert.ReferenceIdeal.Read.val_main_v1 (F := Ideal) a1) (h3 : Z (Proc.devRef .tc main_v3) = Cert.ReferenceIdeal.Read.val_main_v3 (F := Ideal) a1)
    (h2 : Z (Proc.devRef .tc main_arg2) = a2) :
    after hostOps3_2 Z (Proc.devRef .tc main_v85) = Cert.ReferenceIdeal.Read.val_main_v90 (F := Ideal) a0 a1 a2 a3 a4 a5 := by
  after_results_simp
  rw [h13, h4, h1, h3, h2]
  rfl

/-- After the call: the squared coefficient, reshaped to a column. -/
theorem sqcol2 (Z : Valuation τ sig (Elt Ideal)) (a1 : (⟨Cert.ReferenceIdeal.S2x600000, .i32⟩ : BufTy).Contents (Elt Ideal)) (a2 : FVec Ideal Cert.ReferenceIdeal.S600000 .f32)
    (h13 : Z (Proc.devRef .tc main_v56) = Cert.ReferenceIdeal.Read.val_main_v61 (F := Ideal) a1 a2) :
    after hostOps3_2 Z (Proc.devRef .tc main_v87) = shapeCast S50000x1 (Cert.ReferenceIdeal.Read.val_main_v91 (F := Ideal) a1 a2) shapeCasts_S50000_S50000x1 := by
  after_results_simp
  rw [h13]
  rfl

/-- After the call: the layer's bias, reshaped to a row. -/
theorem biasrow2 (Z : Valuation τ sig (Elt Ideal)) (b : FVec Ideal Cert.ReferenceIdeal.S128 .f32) (hb : Z (Proc.devRef .tc main_arg6) = b) :
    after hostOps3_2 Z (Proc.devRef .tc main_v88) = shapeCast S1x128 b shapeCasts_S128_S1x128 := by
  after_results_simp
  rw [hb]
  rfl

theorem keepAB2_main_v1 (X : Valuation τ sig (Elt Ideal)) : after hostOps3_1 (after hostOps3 X) (Proc.devRef .tc main_v1) = X (Proc.devRef .tc main_v1) := by after_results_simp
theorem keepAB2_main_v3 (X : Valuation τ sig (Elt Ideal)) : after hostOps3_1 (after hostOps3 X) (Proc.devRef .tc main_v3) = X (Proc.devRef .tc main_v3) := by after_results_simp
theorem keepAB2_main_v47 (X : Valuation τ sig (Elt Ideal)) : after hostOps3_1 (after hostOps3 X) (Proc.devRef .tc main_v47) = X (Proc.devRef .tc main_v47) := by after_results_simp
theorem keepAB2_main_arg2 (X : Valuation τ sig (Elt Ideal)) : after hostOps3_1 (after hostOps3 X) (Proc.devRef .tc main_arg2) = X (Proc.devRef .tc main_arg2) := by after_results_simp
theorem keepAB2_main_arg6 (X : Valuation τ sig (Elt Ideal)) : after hostOps3_1 (after hostOps3 X) (Proc.devRef .tc main_arg6) = X (Proc.devRef .tc main_arg6) := by after_results_simp
theorem keepABC2_main_v47 (X : Valuation τ sig (Elt Ideal)) : after hostOps3_2 (after hostOps3_1 (after hostOps3 X)) (Proc.devRef .tc main_v47) = X (Proc.devRef .tc main_v47) := by after_results_simp
theorem keepABC2_main_arg7 (X : Valuation τ sig (Elt Ideal)) : after hostOps3_2 (after hostOps3_1 (after hostOps3 X)) (Proc.devRef .tc main_arg7) = X (Proc.devRef .tc main_arg7) := by after_results_simp
theorem keepABC2_main_arg8 (X : Valuation τ sig (Elt Ideal)) : after hostOps3_2 (after hostOps3_1 (after hostOps3 X)) (Proc.devRef .tc main_arg8) = X (Proc.devRef .tc main_arg8) := by after_results_simp

/-! ## The last stretch: the output bias as a row -/

theorem outbias (X : Valuation τ sig (Elt Ideal)) (b : FVec Ideal Cert.ReferenceIdeal.S128 .f32) (hb : X (Proc.devRef .tc main_arg8) = b) :
    after hostOps4 X (Proc.devRef .tc main_v90) = shapeCast S1x128 b shapeCasts_S128_S1x128 := by
  after_results_simp
  rw [hb]
  rfl

theorem keep4_main_v89 (X : Valuation τ sig (Elt Ideal)) : after hostOps4 X (Proc.devRef .tc main_v89) = X (Proc.devRef .tc main_v89) := by after_results_simp
theorem keep4_main_arg7 (X : Valuation τ sig (Elt Ideal)) : after hostOps4 X (Proc.devRef .tc main_arg7) = X (Proc.devRef .tc main_arg7) := by after_results_simp

end Cert.KernelIdeal.Stretches

end
-- ==== Proof.Boundaries.lean ====
/-
  The idealized kernel's buffers at every boundary of its run, as the reference's stages of the nine arguments.
  The run's boundaries are a fold from the launch memory: a stretch of host operations applies its operations; a
  region replaces its output array by what its grid points wrote back. Walking the fold once:

    boundary 1   the edges' sources and destinations;
    boundary 2   the first transformed features (region 0);
    3, 4, 5      the first layer's coefficient, aggregate, squared-coefficient column and bias row;
    boundary 6   the first layer's output (region 1);
    boundary 7   the second transformed features (region 2);
    8, 9, 10     the second layer's coefficient, aggregate, column and row;
    boundary 11  the second layer's output (region 3);
    boundary 12  the output bias as a row;
    boundary 13  the result (region 4).

  Each line is one step: a host stretch read against the reference's stage of the same operation (HostStretches),
  a region's output as a dense stage of its entry arrays (Region0 … Region4) met with the reference's stage
  (RefStages), or a buffer a step leaves alone.
-/
import proofs.«175317_j27779848471424_1_alg».proof.Proof.Gen.KernelIdeal.Frame
import proofs.«175317_j27779848471424_1_alg».proof.Proof.Region0
import proofs.«175317_j27779848471424_1_alg».proof.Proof.Region1
import proofs.«175317_j27779848471424_1_alg».proof.Proof.Region2
import proofs.«175317_j27779848471424_1_alg».proof.Proof.Region3
import proofs.«175317_j27779848471424_1_alg».proof.Proof.Region4
import proofs.«175317_j27779848471424_1_alg».proof.Proof.RefStages
import proofs.«175317_j27779848471424_1_alg».proof.Proof.HostStretches

set_option maxRecDepth 16384
set_option maxHeartbeats 2000000

noncomputable section

namespace Cert.KernelIdeal.Boundaries

open Cert.KernelIdeal Cert.KernelIdeal.Gen Cert.Dense
open Idealize.ShloMosaic Idealize.ShloMosaic.TcCoe Idealize.SL.Sem

variable (m : (ℓ : Loc nD τ sig) → Buf (Elt Ideal) ℓ) (ρ : Dev nD → PrngReg) (c : Dev nD)

/-! ## Boundary 1: after the first stretch -/

theorem at1_main_arg0 : W1 m ρ c (Proc.devRef .tc main_arg0) = (m ((c : Thread nD τ).loc main_arg0)) :=
  (Stretches.keep0_main_arg0 _).trans rfl
theorem at1_main_arg1 : W1 m ρ c (Proc.devRef .tc main_arg1) = (m ((c : Thread nD τ).loc main_arg1)) :=
  (Stretches.keep0_main_arg1 _).trans rfl
theorem at1_main_arg2 : W1 m ρ c (Proc.devRef .tc main_arg2) = (m ((c : Thread nD τ).loc main_arg2)) :=
  (Stretches.keep0_main_arg2 _).trans rfl
theorem at1_main_arg3 : W1 m ρ c (Proc.devRef .tc main_arg3) = (m ((c : Thread nD τ).loc main_arg3)) :=
  (Stretches.keep0_main_arg3 _).trans rfl
theorem at1_main_arg4 : W1 m ρ c (Proc.devRef .tc main_arg4) = (m ((c : Thread nD τ).loc main_arg4)) :=
  (Stretches.keep0_main_arg4 _).trans rfl
theorem at1_main_arg5 : W1 m ρ c (Proc.devRef .tc main_arg5) = (m ((c : Thread nD τ).loc main_arg5)) :=
  (Stretches.keep0_main_arg5 _).trans rfl
theorem at1_main_arg6 : W1 m ρ c (Proc.devRef .tc main_arg6) = (m ((c : Thread nD τ).loc main_arg6)) :=
  (Stretches.keep0_main_arg6 _).trans rfl
theorem at1_main_arg7 : W1 m ρ c (Proc.devRef .tc main_arg7) = (m ((c : Thread nD τ).loc main_arg7)) :=
  (Stretches.keep0_main_arg7 _).trans rfl
theorem at1_main_arg8 : W1 m ρ c (Proc.devRef .tc main_arg8) = (m ((c : Thread nD τ).loc main_arg8)) :=
  (Stretches.keep0_main_arg8 _).trans rfl

theorem at1_main_v1 : W1 m ρ c (Proc.devRef .tc main_v1) = Cert.ReferenceIdeal.Read.val_main_v1 (F := Ideal) (m ((c : Thread nD τ).loc main_arg1)) :=
  Stretches.sources _ _ rfl

theorem at1_main_v3 : W1 m ρ c (Proc.devRef .tc main_v3) = Cert.ReferenceIdeal.Read.val_main_v3 (F := Ideal) (m ((c : Thread nD τ).loc main_arg1)) :=
  Stretches.destinations _ _ rfl

/-! ## Boundary 2: after the first feature transform -/

theorem at2_main_arg2 : W2 m ρ c (Proc.devRef .tc main_arg2) = (m ((c : Thread nD τ).loc main_arg2)) :=
  (W2_of_ne m ρ c main_arg2 (by decide)).trans (at1_main_arg2 m ρ c)
theorem at2_main_arg4 : W2 m ρ c (Proc.devRef .tc main_arg4) = (m ((c : Thread nD τ).loc main_arg4)) :=
  (W2_of_ne m ρ c main_arg4 (by decide)).trans (at1_main_arg4 m ρ c)
theorem at2_main_arg5 : W2 m ρ c (Proc.devRef .tc main_arg5) = (m ((c : Thread nD τ).loc main_arg5)) :=
  (W2_of_ne m ρ c main_arg5 (by decide)).trans (at1_main_arg5 m ρ c)
theorem at2_main_arg6 : W2 m ρ c (Proc.devRef .tc main_arg6) = (m ((c : Thread nD τ).loc main_arg6)) :=
  (W2_of_ne m ρ c main_arg6 (by decide)).trans (at1_main_arg6 m ρ c)
theorem at2_main_arg7 : W2 m ρ c (Proc.devRef .tc main_arg7) = (m ((c : Thread nD τ).loc main_arg7)) :=
  (W2_of_ne m ρ c main_arg7 (by decide)).trans (at1_main_arg7 m ρ c)
theorem at2_main_arg8 : W2 m ρ c (Proc.devRef .tc main_arg8) = (m ((c : Thread nD τ).loc main_arg8)) :=
  (W2_of_ne m ρ c main_arg8 (by decide)).trans (at1_main_arg8 m ρ c)
theorem at2_main_v1 : W2 m ρ c (Proc.devRef .tc main_v1) = Cert.ReferenceIdeal.Read.val_main_v1 (F := Ideal) (m ((c : Thread nD τ).loc main_arg1)) :=
  (W2_of_ne m ρ c main_v1 (by decide)).trans (at1_main_v1 m ρ c)
theorem at2_main_v3 : W2 m ρ c (Proc.devRef .tc main_v3) = Cert.ReferenceIdeal.Read.val_main_v3 (F := Ideal) (m ((c : Thread nD τ).loc main_arg1)) :=
  (W2_of_ne m ρ c main_v3 (by decide)).trans (at1_main_v3 m ρ c)

/-- The first layer's transformed features: the region's `rowDot` of the input features and the first weight. -/
theorem at2_main_v4 : W2 m ρ c (Proc.devRef .tc main_v4) = Cert.ReferenceIdeal.Read.val_main_v4 (F := Ideal) (m ((c : Thread nD τ).loc main_arg0)) (m ((c : Thread nD τ).loc main_arg3)) := by
  refine (W2_arr m ρ c 2).trans ((Region0.array (V1 m ρ) c).trans ?_)
  rw [show V1 m ρ c main_arg0 = _ from at1_main_arg0 m ρ c, show V1 m ρ c main_arg3 = _ from at1_main_arg3 m ρ c]
  exact RefStages.rowDot_eq_dot _ _

/-! ## Boundaries 3, 4, 5: the host stretches of layer 1 -/
theorem at3_mask : W3 m ρ c (Proc.devRef .tc main_v11) = Cert.ReferenceIdeal.Read.val_main_v11 (F := Ideal) (m ((c : Thread nD τ).loc main_arg1)) (m ((c : Thread nD τ).loc main_arg2)) :=
  Stretches.mask1 _ _ _ (at2_main_v3 m ρ c) (at2_main_arg2 m ρ c)
theorem at3_rroot : W3 m ρ c (Proc.devRef .tc main_v12) = Cert.ReferenceIdeal.Read.val_main_v12 (F := Ideal) (m ((c : Thread nD τ).loc main_arg1)) (m ((c : Thread nD τ).loc main_arg2)) :=
  Stretches.rroot1 _ _ _ (at2_main_v3 m ρ c) (at2_main_arg2 m ρ c)
theorem at3_zero : W3 m ρ c (Proc.devRef .tc main_cst_2) = Cert.ReferenceIdeal.Read.val_main_cst_2 (F := Ideal) :=
  Stretches.zero1 _
theorem at4_coeff : W4 m ρ c (Proc.devRef .tc main_v13) = Cert.ReferenceIdeal.Read.val_main_v13 (F := Ideal) (m ((c : Thread nD τ).loc main_arg1)) (m ((c : Thread nD τ).loc main_arg2)) :=
  Stretches.coeff1 _ _ _ (at3_mask m ρ c) (at3_rroot m ρ c) (at3_zero m ρ c)
theorem at4_main_v1 : W4 m ρ c (Proc.devRef .tc main_v1) = Cert.ReferenceIdeal.Read.val_main_v1 (F := Ideal) (m ((c : Thread nD τ).loc main_arg1)) :=
  (Stretches.keepAB1_main_v1 _).trans (at2_main_v1 m ρ c)
theorem at4_main_v3 : W4 m ρ c (Proc.devRef .tc main_v3) = Cert.ReferenceIdeal.Read.val_main_v3 (F := Ideal) (m ((c : Thread nD τ).loc main_arg1)) :=
  (Stretches.keepAB1_main_v3 _).trans (at2_main_v3 m ρ c)
theorem at4_main_v4 : W4 m ρ c (Proc.devRef .tc main_v4) = Cert.ReferenceIdeal.Read.val_main_v4 (F := Ideal) (m ((c : Thread nD τ).loc main_arg0)) (m ((c : Thread nD τ).loc main_arg3)) :=
  (Stretches.keepAB1_main_v4 _).trans (at2_main_v4 m ρ c)
theorem at4_main_arg2 : W4 m ρ c (Proc.devRef .tc main_arg2) = (m ((c : Thread nD τ).loc main_arg2)) :=
  (Stretches.keepAB1_main_arg2 _).trans (at2_main_arg2 m ρ c)
theorem at4_main_arg4 : W4 m ρ c (Proc.devRef .tc main_arg4) = (m ((c : Thread nD τ).loc main_arg4)) :=
  (Stretches.keepAB1_main_arg4 _).trans (at2_main_arg4 m ρ c)
theorem at5_aggregate : W5 m ρ c (Proc.devRef .tc main_v42) = Cert.ReferenceIdeal.Read.val_main_v42 (F := Ideal) (m ((c : Thread nD τ).loc main_arg0)) (m ((c : Thread nD τ).loc main_arg1)) (m ((c : Thread nD τ).loc main_arg2)) (m ((c : Thread nD τ).loc main_arg3)) :=
  Stretches.aggregate1 _ _ _ _ _ (at4_coeff m ρ c) (at4_main_v4 m ρ c) (at4_main_v1 m ρ c)
    (at4_main_v3 m ρ c) (at4_main_arg2 m ρ c)
theorem at5_sqcol : W5 m ρ c (Proc.devRef .tc main_v44)
    = shapeCast S50000x1 (Cert.ReferenceIdeal.Read.val_main_v43 (F := Ideal) (m ((c : Thread nD τ).loc main_arg1)) (m ((c : Thread nD τ).loc main_arg2))) shapeCasts_S50000_S50000x1 :=
  Stretches.sqcol1 _ _ _ (at4_coeff m ρ c)
theorem at5_biasrow : W5 m ρ c (Proc.devRef .tc main_v45) = shapeCast S1x128 (m ((c : Thread nD τ).loc main_arg4)) shapeCasts_S128_S1x128 :=
  Stretches.biasrow1 _ _ (at4_main_arg4 m ρ c)
theorem at5_main_v4 : W5 m ρ c (Proc.devRef .tc main_v4) = Cert.ReferenceIdeal.Read.val_main_v4 (F := Ideal) (m ((c : Thread nD τ).loc main_arg0)) (m ((c : Thread nD τ).loc main_arg3)) :=
  (Stretches.keepABC1_main_v4 _).trans (at2_main_v4 m ρ c)
theorem at5_main_v1 : W5 m ρ c (Proc.devRef .tc main_v1) = Cert.ReferenceIdeal.Read.val_main_v1 (F := Ideal) (m ((c : Thread nD τ).loc main_arg1)) :=
  (Stretches.keepABC1_main_v1 _).trans (at2_main_v1 m ρ c)
theorem at5_main_v3 : W5 m ρ c (Proc.devRef .tc main_v3) = Cert.ReferenceIdeal.Read.val_main_v3 (F := Ideal) (m ((c : Thread nD τ).loc main_arg1)) :=
  (Stretches.keepABC1_main_v3 _).trans (at2_main_v3 m ρ c)
theorem at5_main_arg2 : W5 m ρ c (Proc.devRef .tc main_arg2) = (m ((c : Thread nD τ).loc main_arg2)) :=
  (Stretches.keepABC1_main_arg2 _).trans (at2_main_arg2 m ρ c)
theorem at5_main_arg5 : W5 m ρ c (Proc.devRef .tc main_arg5) = (m ((c : Thread nD τ).loc main_arg5)) :=
  (Stretches.keepABC1_main_arg5 _).trans (at2_main_arg5 m ρ c)
theorem at5_main_arg6 : W5 m ρ c (Proc.devRef .tc main_arg6) = (m ((c : Thread nD τ).loc main_arg6)) :=
  (Stretches.keepABC1_main_arg6 _).trans (at2_main_arg6 m ρ c)
theorem at5_main_arg7 : W5 m ρ c (Proc.devRef .tc main_arg7) = (m ((c : Thread nD τ).loc main_arg7)) :=
  (Stretches.keepABC1_main_arg7 _).trans (at2_main_arg7 m ρ c)
theorem at5_main_arg8 : W5 m ρ c (Proc.devRef .tc main_arg8) = (m ((c : Thread nD τ).loc main_arg8)) :=
  (Stretches.keepABC1_main_arg8 _).trans (at2_main_arg8 m ρ c)

/-! ## Boundary 6: after the first combine -/

theorem at6_main_v1 : W6 m ρ c (Proc.devRef .tc main_v1) = Cert.ReferenceIdeal.Read.val_main_v1 (F := Ideal) (m ((c : Thread nD τ).loc main_arg1)) :=
  (W6_of_ne m ρ c main_v1 (by decide)).trans (at5_main_v1 m ρ c)
theorem at6_main_v3 : W6 m ρ c (Proc.devRef .tc main_v3) = Cert.ReferenceIdeal.Read.val_main_v3 (F := Ideal) (m ((c : Thread nD τ).loc main_arg1)) :=
  (W6_of_ne m ρ c main_v3 (by decide)).trans (at5_main_v3 m ρ c)
theorem at6_main_arg2 : W6 m ρ c (Proc.devRef .tc main_arg2) = (m ((c : Thread nD τ).loc main_arg2)) :=
  (W6_of_ne m ρ c main_arg2 (by decide)).trans (at5_main_arg2 m ρ c)
theorem at6_main_arg5 : W6 m ρ c (Proc.devRef .tc main_arg5) = (m ((c : Thread nD τ).loc main_arg5)) :=
  (W6_of_ne m ρ c main_arg5 (by decide)).trans (at5_main_arg5 m ρ c)
theorem at6_main_arg6 : W6 m ρ c (Proc.devRef .tc main_arg6) = (m ((c : Thread nD τ).loc main_arg6)) :=
  (W6_of_ne m ρ c main_arg6 (by decide)).trans (at5_main_arg6 m ρ c)
theorem at6_main_arg7 : W6 m ρ c (Proc.devRef .tc main_arg7) = (m ((c : Thread nD τ).loc main_arg7)) :=
  (W6_of_ne m ρ c main_arg7 (by decide)).trans (at5_main_arg7 m ρ c)
theorem at6_main_arg8 : W6 m ρ c (Proc.devRef .tc main_arg8) = (m ((c : Thread nD τ).loc main_arg8)) :=
  (W6_of_ne m ρ c main_arg8 (by decide)).trans (at5_main_arg8 m ρ c)

/-- The first layer's output: the region's `combine` of the four buffers the stretches left. -/
theorem at6_main_v46 : W6 m ρ c (Proc.devRef .tc main_v46) = Cert.ReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 4).trans ((Region1.array (V5 m ρ) c).trans ?_)
  rw [show V5 m ρ c main_v42 = _ from at5_aggregate m ρ c, show V5 m ρ c main_v4 = _ from at5_main_v4 m ρ c,
    show V5 m ρ c main_v44 = _ from at5_sqcol m ρ c, show V5 m ρ c main_v45 = _ from at5_biasrow m ρ c]
  exact RefStages.layer1_combine _ _ _ _ _ _ _

/-! ## Boundary 7: after the second feature transform -/

theorem at7_main_v1 : W7 m ρ c (Proc.devRef .tc main_v1) = Cert.ReferenceIdeal.Read.val_main_v1 (F := Ideal) (m ((c : Thread nD τ).loc main_arg1)) :=
  (W7_of_ne m ρ c main_v1 (by decide)).trans (at6_main_v1 m ρ c)
theorem at7_main_v3 : W7 m ρ c (Proc.devRef .tc main_v3) = Cert.ReferenceIdeal.Read.val_main_v3 (F := Ideal) (m ((c : Thread nD τ).loc main_arg1)) :=
  (W7_of_ne m ρ c main_v3 (by decide)).trans (at6_main_v3 m ρ c)
theorem at7_main_arg2 : W7 m ρ c (Proc.devRef .tc main_arg2) = (m ((c : Thread nD τ).loc main_arg2)) :=
  (W7_of_ne m ρ c main_arg2 (by decide)).trans (at6_main_arg2 m ρ c)
theorem at7_main_arg6 : W7 m ρ c (Proc.devRef .tc main_arg6) = (m ((c : Thread nD τ).loc main_arg6)) :=
  (W7_of_ne m ρ c main_arg6 (by decide)).trans (at6_main_arg6 m ρ c)
theorem at7_main_arg7 : W7 m ρ c (Proc.devRef .tc main_arg7) = (m ((c : Thread nD τ).loc main_arg7)) :=
  (W7_of_ne m ρ c main_arg7 (by decide)).trans (at6_main_arg7 m ρ c)
theorem at7_main_arg8 : W7 m ρ c (Proc.devRef .tc main_arg8) = (m ((c : Thread nD τ).loc main_arg8)) :=
  (W7_of_ne m ρ c main_arg8 (by decide)).trans (at6_main_arg8 m ρ c)

/-- The second layer's transformed features. -/
theorem at7_main_v47 : W7 m ρ c (Proc.devRef .tc main_v47) = Cert.ReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 2).trans ((Region2.array (V6 m ρ) c).trans ?_)
  rw [show V6 m ρ c main_v46 = _ from at6_main_v46 m ρ c, show V6 m ρ c main_arg5 = _ from at6_main_arg5 m ρ c]
  exact RefStages.rowDot_eq_dot _ _

/-! ## Boundaries 8, 9, 10: the host stretches of layer 2 -/
theorem at8_mask : W8 m ρ c (Proc.devRef .tc main_v54) = Cert.ReferenceIdeal.Read.val_main_v59 (F := Ideal) (m ((c : Thread nD τ).loc main_arg1)) (m ((c : Thread nD τ).loc main_arg2)) :=
  Stretches.mask2 _ _ _ (at7_main_v3 m ρ c) (at7_main_arg2 m ρ c)
theorem at8_rroot : W8 m ρ c (Proc.devRef .tc main_v55) = Cert.ReferenceIdeal.Read.val_main_v60 (F := Ideal) (m ((c : Thread nD τ).loc main_arg1)) (m ((c : Thread nD τ).loc main_arg2)) :=
  Stretches.rroot2 _ _ _ (at7_main_v3 m ρ c) (at7_main_arg2 m ρ c)
theorem at8_zero : W8 m ρ c (Proc.devRef .tc main_cst_12) = Cert.ReferenceIdeal.Read.val_main_cst_12 (F := Ideal) :=
  Stretches.zero2 _
theorem at9_coeff : W9 m ρ c (Proc.devRef .tc main_v56) = Cert.ReferenceIdeal.Read.val_main_v61 (F := Ideal) (m ((c : Thread nD τ).loc main_arg1)) (m ((c : Thread nD τ).loc main_arg2)) :=
  Stretches.coeff2 _ _ _ (at8_mask m ρ c) (at8_rroot m ρ c) (at8_zero m ρ c)
theorem at9_main_v1 : W9 m ρ c (Proc.devRef .tc main_v1) = Cert.ReferenceIdeal.Read.val_main_v1 (F := Ideal) (m ((c : Thread nD τ).loc main_arg1)) :=
  (Stretches.keepAB2_main_v1 _).trans (at7_main_v1 m ρ c)
theorem at9_main_v3 : W9 m ρ c (Proc.devRef .tc main_v3) = Cert.ReferenceIdeal.Read.val_main_v3 (F := Ideal) (m ((c : Thread nD τ).loc main_arg1)) :=
  (Stretches.keepAB2_main_v3 _).trans (at7_main_v3 m ρ c)
theorem at9_main_v47 : W9 m ρ c (Proc.devRef .tc main_v47) = Cert.ReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (Stretches.keepAB2_main_v47 _).trans (at7_main_v47 m ρ c)
theorem at9_main_arg2 : W9 m ρ c (Proc.devRef .tc main_arg2) = (m ((c : Thread nD τ).loc main_arg2)) :=
  (Stretches.keepAB2_main_arg2 _).trans (at7_main_arg2 m ρ c)
theorem at9_main_arg6 : W9 m ρ c (Proc.devRef .tc main_arg6) = (m ((c : Thread nD τ).loc main_arg6)) :=
  (Stretches.keepAB2_main_arg6 _).trans (at7_main_arg6 m ρ c)
theorem at10_aggregate : W10 m ρ c (Proc.devRef .tc main_v85) = Cert.ReferenceIdeal.Read.val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  Stretches.aggregate2 _ _ _ _ _ _ _ (at9_coeff m ρ c) (at9_main_v47 m ρ c) (at9_main_v1 m ρ c)
    (at9_main_v3 m ρ c) (at9_main_arg2 m ρ c)
theorem at10_sqcol : W10 m ρ c (Proc.devRef .tc main_v87)
    = shapeCast S50000x1 (Cert.ReferenceIdeal.Read.val_main_v91 (F := Ideal) (m ((c : Thread nD τ).loc main_arg1)) (m ((c : Thread nD τ).loc main_arg2))) shapeCasts_S50000_S50000x1 :=
  Stretches.sqcol2 _ _ _ (at9_coeff m ρ c)
theorem at10_biasrow : W10 m ρ c (Proc.devRef .tc main_v88) = shapeCast S1x128 (m ((c : Thread nD τ).loc main_arg6)) shapeCasts_S128_S1x128 :=
  Stretches.biasrow2 _ _ (at9_main_arg6 m ρ c)
theorem at10_main_v47 : W10 m ρ c (Proc.devRef .tc main_v47) = Cert.ReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (Stretches.keepABC2_main_v47 _).trans (at7_main_v47 m ρ c)
theorem at10_main_arg7 : W10 m ρ c (Proc.devRef .tc main_arg7) = (m ((c : Thread nD τ).loc main_arg7)) :=
  (Stretches.keepABC2_main_arg7 _).trans (at7_main_arg7 m ρ c)
theorem at10_main_arg8 : W10 m ρ c (Proc.devRef .tc main_arg8) = (m ((c : Thread nD τ).loc main_arg8)) :=
  (Stretches.keepABC2_main_arg8 _).trans (at7_main_arg8 m ρ c)

/-! ## Boundary 11: after the second combine -/

theorem at11_main_arg7 : W11 m ρ c (Proc.devRef .tc main_arg7) = (m ((c : Thread nD τ).loc main_arg7)) :=
  (W11_of_ne m ρ c main_arg7 (by decide)).trans (at10_main_arg7 m ρ c)
theorem at11_main_arg8 : W11 m ρ c (Proc.devRef .tc main_arg8) = (m ((c : Thread nD τ).loc main_arg8)) :=
  (W11_of_ne m ρ c main_arg8 (by decide)).trans (at10_main_arg8 m ρ c)

/-- The second layer's output. -/
theorem at11_main_v89 : W11 m ρ c (Proc.devRef .tc main_v89) = Cert.ReferenceIdeal.Read.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W11_arr m ρ c 4).trans ((Region3.array (V10 m ρ) c).trans ?_)
  rw [show V10 m ρ c main_v85 = _ from at10_aggregate m ρ c, show V10 m ρ c main_v47 = _ from at10_main_v47 m ρ c,
    show V10 m ρ c main_v87 = _ from at10_sqcol m ρ c, show V10 m ρ c main_v88 = _ from at10_biasrow m ρ c]
  exact RefStages.layer2_combine _ _ _ _ _ _ _ _ _

/-! ## Boundary 12: after the last stretch -/

theorem at12_outbias : W12 m ρ c (Proc.devRef .tc main_v90) = shapeCast S1x128 (m ((c : Thread nD τ).loc main_arg8)) shapeCasts_S128_S1x128 :=
  Stretches.outbias _ _ (at11_main_arg8 m ρ c)

theorem at12_main_v89 : W12 m ρ c (Proc.devRef .tc main_v89) = Cert.ReferenceIdeal.Read.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (Stretches.keep4_main_v89 _).trans (at11_main_v89 m ρ c)
theorem at12_main_arg7 : W12 m ρ c (Proc.devRef .tc main_arg7) = (m ((c : Thread nD τ).loc main_arg7)) :=
  (Stretches.keep4_main_arg7 _).trans (at11_main_arg7 m ρ c)

/-! ## Boundary 13: the result -/

/-- The result buffer after the program: the reference's last stage of the nine arguments. -/
theorem result : W13 m ρ c (Proc.devRef .tc main_v91) = Cert.ReferenceIdeal.Read.val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W13_arr m ρ c 3).trans ((Region4.array (V12 m ρ) c).trans ?_)
  rw [show V12 m ρ c main_v89 = _ from at12_main_v89 m ρ c, show V12 m ρ c main_arg7 = _ from at12_main_arg7 m ρ c,
    show V12 m ρ c main_v90 = _ from at12_outbias m ρ c]
  exact RefStages.projection _ _ _ _

end Cert.KernelIdeal.Boundaries

end
-- ==== Proof.lean ====
/-
  A two-layer graph-convolution encoder with an output projection, computed by five pipelined kernels among
  host gathers and scatters, against the same encoder written with whole-array operations only: equal results over
  the extended reals, from memories that agree on the nine arguments.

  Each layer is: transform the node features by a weight (x · W); from the edge weights form the weighted in-degree
  plus one, its reciprocal root d (zero where the degree is not positive), and per edge the coefficient
  d(source) · weight · d(destination); gather the transformed features at the sources, scale them by the edge
  coefficient and add them up at the destinations; add the node's own transformed features weighted by d², add the
  bias, clip below at zero. The projection is one more product plus a bias.

  The kernels compute the three DENSE steps block of rows by block of rows — the two feature transforms, the two
  "add self term, add bias, clip" steps, and the projection — and leave the irregular steps (the degree, the
  coefficients, the gather and the scatter-add) to the same host operations the reference uses, on the same operands.
  So the two programs are one function, for three reasons and no others:
    * a change of float format is the identity over the extended reals, and a block product accumulated into zero is
      the plain sum of products, so a kernel's block of rows of x · W is the reference's product restricted to
      those rows, and the 25 blocks of 2000 rows cover the 50000 rows (DenseSpec, BlockBodies, Region0 … Region4);
    * the kernel reshapes d² to a column and a bias to a row where the reference broadcasts them in two steps; both
      put entry r, respectively entry c, at position (r, c) (RefStages);
    * every irregular step is the same operation of the same operands on both sides, so it is matched, never
      opened (HostStretches).
  No step uses that the inputs are finite: the only algebra is re-indexing a finite sum along a bijection of its index
  set, which holds in any commutative monoid and so at the infinities too; no factor is moved across a sum and nothing
  is cancelled.
  Boundaries walks the kernel's run boundary by boundary; ResultRun is the run itself with the result kept.
  The idealization rewrote no operation of the kernel, so that claim is trivial.
-/
import proofs.«175317_j27779848471424_1_alg».proof.Defs
import proofs.«175317_j27779848471424_1_alg».proof.Proof.Gen.Kernel
import proofs.«175317_j27779848471424_1_alg».proof.Proof.Gen.Kernel.Skeleton
import proofs.«175317_j27779848471424_1_alg».proof.Proof.Gen.Kernel.Launch
import proofs.«175317_j27779848471424_1_alg».proof.Proof.Gen.Kernel.Points
import proofs.«175317_j27779848471424_1_alg».proof.Proof.Gen.Kernel.Frame
import proofs.«175317_j27779848471424_1_alg».proof.Proof.Gen.KernelIdeal
import proofs.«175317_j27779848471424_1_alg».proof.Proof.Gen.KernelIdeal.Skeleton
import proofs.«175317_j27779848471424_1_alg».proof.Proof.Gen.KernelIdeal.Launch
import proofs.«175317_j27779848471424_1_alg».proof.Proof.Gen.KernelIdeal.Points
import proofs.«175317_j27779848471424_1_alg».proof.Proof.Gen.KernelIdeal.Frame
import proofs.«175317_j27779848471424_1_alg».proof.Proof.Gen.ReferenceIdeal
import proofs.«175317_j27779848471424_1_alg».proof.Proof.Gen.ReferenceIdeal.Run
import proofs.«175317_j27779848471424_1_alg».proof.Proof.Gen.ReferenceIdeal.Read
import proofs.«175317_j27779848471424_1_alg».proof.Proof.Gen.Pre_finite_inputs
import proofs.«175317_j27779848471424_1_alg».proof.Proof.ResultRun
import proofs.«175317_j27779848471424_1_alg».proof.Proof.Boundaries
import Idealize.ShloMosaic.Adequacy
import Idealize.ShloMosaic.Init

set_option maxRecDepth 16384
set_option maxHeartbeats 2000000

noncomputable section

namespace Cert.Proof

open Idealize.ShloMosaic Idealize.SL.Sem

/-- From memories agreeing on the arguments both idealized programs run, and both end with the reference's last stage
    of the arguments in their result buffer: the kernel by its run read boundary by boundary, the reference by its run
    read back as its stages. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v103 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Boundaries.result m ρ c), (h c).2⟩)
      (Cert.KernelIdeal.ResultRun.run_result (F := Ideal) m ρ)
  · refine (θ_run Cert.ReferenceIdeal.defs _ _).mono (fun r h c => ⟨?_, (h c).2⟩)
      (Cert.ReferenceIdeal.Value.run (F := Ideal) m' ρ')
    refine ((h c).1.trans (Cert.ReferenceIdeal.Read.val_main_v103_eq m' c)).trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
